-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x512x512 : Shape := ⟨3, ![2, 512, 512]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S2x512x512 : S_.BroadcastsInDim S2x512x512 (![] : Fin 0 → Fin S2x512x512.rank)
  reducesTo_S2x512x512_S_d0_1_2 : S2x512x512.ReducesTo [0, 1, 2] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S256 .f32) (main_arg5 : FVec F S256x1 .f32) (main_arg6 : FVec F S1 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x1 .f32 := Host.absf main_arg5
  let main_cst_8 : FVec F S_ .f32 := constant S_ .f32 0x7F800000#32
  let main_v25 : FVec F S256x1 .f32 := broadcastInDim S256x1 ![] bcast_S_S256x1 main_cst_8
  let main_v26 : IVec S256x1 1 := cmpf .olt main_v24 main_v25
  let main_c_9 : IVec S_ 1 := constantI S_ 1 1#1
  let main_v27 : IVec S_ 1 := (fun x v => Host.reduce IntOp.andi x v reducesTo_S256x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S2x512x512 .f32) (main_arg1 : FVec F S1024x512 .f32) (main_arg2 : FVec F S512 .f32) (main_arg3 : FVec F S512x256 .f32) (main_arg4 : FVec F S256 .f32) (main_arg5 : FVec F S256x1 .f32) (main_arg6 : FVec F S1 .f32) : IVec S_ 1 :=
  let main_v0 : FVec F S2x512x512 .f32 := Host.absf main_arg0
  let main_cst : FVec F S_ .f32 := constant S_ .f32 0x7F800000#32
  let main_v1 : FVec F S2x512x512 .f32 := broadcastInDim S2x512x512 ![] bcast_S_S2x512x512 main_cst
  let main_v2 : IVec S2x512x512 1 := cmpf .olt main_v0 main_v1
  let main_c : IVec S_ 1 := constantI S_ 1 1#1
  let main_v3 : IVec S_ 1 := (fun x v => Host.reduce IntOp.andi x v reducesTo_S2x512x512_S_d0_1_2 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg4 main_arg5 main_arg6 main_v13 main_v16
-- ==== Kernel.lean ====
abbrev S2x512x512 : Shape := ⟨3, ![2, 512, 512]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S512x512 : Shape := ⟨2, ![512, 512]⟩
abbrev S1x512x512 : Shape := ⟨3, ![1, 512, 512]⟩
abbrev S1x64x512 : Shape := ⟨3, ![1, 64, 512]⟩
abbrev S1x128x512 : Shape := ⟨3, ![1, 128, 512]⟩
abbrev S1x64x128 : Shape := ⟨3, ![1, 64, 128]⟩
abbrev S64x512 : Shape := ⟨2, ![64, 512]⟩
abbrev S128x512 : Shape := ⟨2, ![128, 512]⟩
abbrev S64x1x512 : Shape := ⟨3, ![64, 1, 512]⟩
abbrev S64x128x512 : Shape := ⟨3, ![64, 128, 512]⟩
abbrev S1x1x512 : Shape := ⟨3, ![1, 1, 512]⟩
abbrev S8192x512 : Shape := ⟨2, ![8192, 512]⟩
abbrev S8192x256 : Shape := ⟨2, ![8192, 256]⟩
abbrev S1x256 : Shape := ⟨2, ![1, 256]⟩
abbrev S8192x1 : Shape := ⟨2, ![8192, 1]⟩
abbrev S1x1 : Shape := ⟨2, ![1, 1]⟩
abbrev S64x128 : Shape := ⟨2, ![64, 128]⟩

abbrev nBuf : Space → Nat
  | .hbm => 12
  | .vmem => 19
  | .smem => 0
  | _ => 0

abbrev bufTy : (tb : Table) → Fin (tcTables nBuf tb) → BufTy
  | .hbm, ⟨0, _⟩ => ⟨S2x512x512, .f32⟩
  | .hbm, ⟨1, _⟩ => ⟨S1024x512, .f32⟩
  | .hbm, ⟨2, _⟩ => ⟨S512, .f32⟩
  | .hbm, ⟨3, _⟩ => ⟨S512x256, .f32⟩
  | .hbm, ⟨4, _⟩ => ⟨S256, .f32⟩
  | .hbm, ⟨5, _⟩ => ⟨S256x1, .f32⟩
  | .hbm, ⟨6, _⟩ => ⟨S1, .f32⟩
  | .hbm, ⟨7, _⟩ => ⟨S512x512, .f32⟩
  | .hbm, ⟨8, _⟩ => ⟨S512x512, .f32⟩
  | .hbm, ⟨9, _⟩ => ⟨S2x512x512, .bf16⟩
  | .hbm, ⟨10, _⟩ => ⟨S2x512x512, .bf16⟩
  | .hbm, ⟨11, _⟩ => ⟨S2x512x512, .f32⟩
  | .local _ .vmem, ⟨0, _⟩ => ⟨S1x512x512, .f32⟩
  | .local _ .vmem, ⟨1, _⟩ => ⟨S1x512x512, .f32⟩
  | .local _ .vmem, ⟨2, _⟩ => ⟨S512x512, .f32⟩
  | .local _ .vmem, ⟨3, _⟩ => ⟨S512x512, .f32⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x64x512, .bf16⟩
  | .local _ .vmem, ⟨9, _⟩ => ⟨S1x64x512, .bf16⟩
  | .local _ .vmem, ⟨10, _⟩ => ⟨S1x128x512, .bf16⟩
  | .local _ .vmem, ⟨11, _⟩ => ⟨S1x128x512, .bf16⟩
  | .local _ .vmem, ⟨12, _⟩ => ⟨S512, .f32⟩
  | .local _ .vmem, ⟨13, _⟩ => ⟨S512x256, .f32⟩
  | .local _ .vmem, ⟨14, _⟩ => ⟨S256, .f32⟩
  | .local _ .vmem, ⟨15, _⟩ => ⟨S256x1, .f32⟩
  | .local _ .vmem, ⟨16, _⟩ => ⟨S1, .f32⟩
  | .local _ .vmem, ⟨17, _⟩ => ⟨S1x64x128, .f32⟩
  | .local _ .vmem, ⟨18, _⟩ => ⟨S1x64x128, .f32⟩
  | _, _ => ⟨S2x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg7_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem7_1 : DmaSem sig := 18

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨3, ![2, 8, 4], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc1_transform_7 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage1_0 : Fin 2 → Memref sig .tc .vmem S1x64x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x128x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 1 → Memref sig .tc .vmem S512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false, false]

abbrev stage1_3 : Fin 1 → Memref sig .tc .vmem S512x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 1 → Memref sig .tc .vmem S256x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false, false]

abbrev stage1_6 : Fin 1 → Memref sig .tc .vmem S1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false, false]

abbrev stage1_7 : Fin 2 → Memref sig .tc .vmem S1x64x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true, true]

class Facts₀ : Prop where
  slices_S1024x512_S512x512_0_0 : S1024x512.Slices ![0, 0] S512x512
  slices_S1024x512_S512x512_512_0 : S1024x512.Slices ![512, 0] S512x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S512x512_S1x512x512 : S512x512.ShapeCasts S1x512x512
  packedbf16_S1x512x512_S1x512x512_0_0_0 : (Rect.unit (s := S1x512x512) ![0, 0, 0] S1x512x512.size inb_S1x512x512_S1x512x512_0_0_0).PackedRows (EltTy.packing .bf16)
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  inb_S512_S512_0 : ∀ a, (![0] : Fin 1 → Nat) a + S512.size a ≤ S512.size a
  h_S512 : 0 < S512.numel
  shapeCasts_S64x512_S64x1x512 : S64x512.ShapeCasts S64x1x512
  shapeCasts_S128x512_S1x128x512 : S128x512.ShapeCasts S1x128x512
  broadcasts_S64x1x512_S64x128x512 : S64x1x512.Broadcasts S64x128x512
  broadcasts_S1x128x512_S64x128x512 : S1x128x512.Broadcasts S64x128x512
  shapeCasts_S512_S1x1x512 : S512.ShapeCasts S1x1x512
  broadcasts_S1x1x512_S64x128x512 : S1x1x512.Broadcasts S64x128x512
  shapeCasts_S64x128x512_S8192x512 : S64x128x512.ShapeCasts S8192x512
  inb_S512x256_S512x256_0_0 : ∀ a, (![0, 0] : Fin 2 → Nat) a + S512x256.size a ≤ S512x256.size a
  h_S512x256 : 0 < S512x256.numel
  inb_S256_S256_0 : ∀ a, (![0] : Fin 1 → Nat) a + S256.size a ≤ S256.size a
  h_S256 : 0 < S256.numel
  shapeCasts_S256_S1x256 : S256.ShapeCasts S1x256
  broadcasts_S1x256_S8192x256 : S1x256.Broadcasts S8192x256
  inb_S256x1_S256x1_0_0 : ∀ a, (![0, 0] : Fin 2 → Nat) a + S256x1.size a ≤ S256x1.size a
  h_S256x1 : 0 < S256x1.numel
  inb_S1_S1_0 : ∀ a, (![0] : Fin 1 → Nat) a + S1.size a ≤ S1.size a
  h_S1 : 0 < S1.numel
  shapeCasts_S1_S1x1 : S1.ShapeCasts S1x1
  broadcasts_S1x1_S8192x1 : S1x1.Broadcasts S8192x1
  shapeCasts_S8192x1_S64x128 : S8192x1.ShapeCasts S64x128
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  shapeCasts_S64x128_S1x64x128 : S64x128.ShapeCasts S1x64x128
  dot_S512x512_S512x512_S512x512_1_0_0_1_n_n_wf : DotDims.WF S512x512 S512x512 S512x512 [1] [0] [0] [1] [] []
  dot_S8192x512_S512x256_S8192x256_1_0_0_1_n_n_wf : DotDims.WF S8192x512 S512x256 S8192x256 [1] [0] [0] [1] [] []
  dot_S8192x256_S256x1_S8192x1_1_0_0_1_n_n_wf : DotDims.WF S8192x256 S256x1 S8192x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S2x512x512.size a
  hwx0_0 : ∀ i : grid0.Coords, EltTy.bits .f32 = 32 ∨ (Rect.block (s := S2x512x512) S1x512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x512.size a ≤ S2x512x512.size a
  hwx0_3 : ∀ i : grid0.Coords, EltTy.bits .bf16 = 32 ∨ (Rect.block (s := S2x512x512) S1x512x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x512.size a ≤ S2x512x512.size a
  hwx0_4 : ∀ i : grid0.Coords, EltTy.bits .bf16 = 32 ∨ (Rect.block (s := S2x512x512) S1x512x512.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x64x512.size a ≤ S2x512x512.size a
  hwx1_0 : ∀ i : grid1.Coords, EltTy.bits .bf16 = 32 ∨ (Rect.block (s := S2x512x512) S1x64x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x128x512.size a ≤ S2x512x512.size a
  hwx1_1 : ∀ i : grid1.Coords, EltTy.bits .bf16 = 32 ∨ (Rect.block (s := S2x512x512) S1x128x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512.size a ≤ S512.size a
  hwx1_2 : ∀ i : grid1.Coords, EltTy.bits .f32 = 32 ∨ (Rect.block (s := S512) S512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x256.size a ≤ S512x256.size a
  hwx1_3 : ∀ i : grid1.Coords, EltTy.bits .f32 = 32 ∨ (Rect.block (s := S512x256) S512x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x1.size a ≤ S256x1.size a
  hwx1_5 : ∀ i : grid1.Coords, EltTy.bits .f32 = 32 ∨ (Rect.block (s := S256x1) S256x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1.size a ≤ S1.size a
  hwx1_6 : ∀ i : grid1.Coords, EltTy.bits .f32 = 32 ∨ (Rect.block (s := S1) S1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x64x128.size a ≤ S2x512x512.size a
  hwx1_7 : ∀ i : grid1.Coords, EltTy.bits .f32 = 32 ∨ (Rect.block (s := S2x512x512) S1x64x128.size (cc1_transform_7 i) (hinb1_7 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x256_S256x1_S8192x1_1_0_0_1_n_n : DotDims S8192x256 S256x1 S8192x1 where
  lhsContracting := [1]
  rhsContracting := [0]
  lhsNonContracting := [0]
  rhsNonContracting := [1]
  lhsBatch := []
  rhsBatch := []
  wf := dot_S8192x256_S256x1_S8192x1_1_0_0_1_n_n_wf

abbrev win0_0 : Pipeline.Window sig grid0 :=
  Pipeline.Window.ofSpec (Memref.whole main_arg0) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S1x512x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S1x512x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v2_0) S1x64x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_1) S1x128x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S512x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S256x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg6) S1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v3) S1x64x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S2x512x512 : Shape := ⟨3, ![2, 512, 512]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S512x512 : Shape := ⟨2, ![512, 512]⟩
abbrev S2x512x1x512 : Shape := ⟨4, ![2, 512, 1, 512]⟩
abbrev S2x1x512x512 : Shape := ⟨4, ![2, 1, 512, 512]⟩
abbrev S2x512x512x512 : Shape := ⟨4, ![2, 512, 512, 512]⟩
abbrev S1x1x1x512 : Shape := ⟨4, ![1, 1, 1, 512]⟩
abbrev S_ : Shape := ⟨0, ![]⟩
abbrev S2x512x512x256 : Shape := ⟨4, ![2, 512, 512, 256]⟩
abbrev S1x1x1x256 : Shape := ⟨4, ![1, 1, 1, 256]⟩
abbrev S2x512x512x1 : Shape := ⟨4, ![2, 512, 512, 1]⟩
abbrev S1x1x1x1 : Shape := ⟨4, ![1, 1, 1, 1]⟩

abbrev nBuf : Space → Nat
  | .hbm => 42
  | .vmem => 0
  | .smem => 0
  | _ => 0

abbrev bufTy : (tb : Table) → Fin (tcTables nBuf tb) → BufTy
  | .hbm, ⟨0, _⟩ => ⟨S2x512x512, .f32⟩
  | .hbm, ⟨1, _⟩ => ⟨S1024x512, .f32⟩
  | .hbm, ⟨2, _⟩ => ⟨S512, .f32⟩
  | .hbm, ⟨3, _⟩ => ⟨S512x256, .f32⟩
  | .hbm, ⟨4, _⟩ => ⟨S256, .f32⟩
  | .hbm, ⟨5, _⟩ => ⟨S256x1, .f32⟩
  | .hbm, ⟨6, _⟩ => ⟨S1, .f32⟩
  | .hbm, ⟨7, _⟩ => ⟨S512x512, .f32⟩
  | .hbm, ⟨8, _⟩ => ⟨S2x512x512, .f32⟩
  | .hbm, ⟨9, _⟩ => ⟨S512x512, .f32⟩
  | .hbm, ⟨10, _⟩ => ⟨S2x512x512, .f32⟩
  | .hbm, ⟨11, _⟩ => ⟨S2x512x1x512, .f32⟩
  | .hbm, ⟨12, _⟩ => ⟨S2x1x512x512, .f32⟩
  | .hbm, ⟨13, _⟩ => ⟨S2x512x512x512, .f32⟩
  | .hbm, ⟨14, _⟩ => ⟨S2x512x512x512, .f32⟩
  | .hbm, ⟨15, _⟩ => ⟨S2x512x512x512, .f32⟩
  | .hbm, ⟨16, _⟩ => ⟨S1x1x1x512, .f32⟩
  | .hbm, ⟨17, _⟩ => ⟨S2x512x512x512, .f32⟩
  | .hbm, ⟨18, _⟩ => ⟨S2x512x512x512, .f32⟩
  | .hbm, ⟨19, _⟩ => ⟨S_, .f32⟩
  | .hbm, ⟨20, _⟩ => ⟨S2x512x512x512, .f32⟩
  | .hbm, ⟨21, _⟩ => ⟨S2x512x512x512, .f32⟩
  | .hbm, ⟨22, _⟩ => ⟨S2x512x512x256, .f32⟩
  | .hbm, ⟨23, _⟩ => ⟨S1x1x1x256, .f32⟩
  | .hbm, ⟨24, _⟩ => ⟨S2x512x512x256, .f32⟩
  | .hbm, ⟨25, _⟩ => ⟨S2x512x512x256, .f32⟩
  | .hbm, ⟨26, _⟩ => ⟨S_, .f32⟩
  | .hbm, ⟨27, _⟩ => ⟨S2x512x512x256, .f32⟩
  | .hbm, ⟨28, _⟩ => ⟨S2x512x512x256, .f32⟩
  | .hbm, ⟨29, _⟩ => ⟨S2x512x512x1, .f32⟩
  | .hbm, ⟨30, _⟩ => ⟨S1x1x1x1, .f32⟩
  | .hbm, ⟨31, _⟩ => ⟨S2x512x512x1, .f32⟩
  | .hbm, ⟨32, _⟩ => ⟨S2x512x512x1, .f32⟩
  | .hbm, ⟨33, _⟩ => ⟨S2x512x512, .f32⟩
  | .hbm, ⟨34, _⟩ => ⟨S2x512x512, .f32⟩
  | .hbm, ⟨35, _⟩ => ⟨S2x512x512, .f32⟩
  | .hbm, ⟨36, _⟩ => ⟨S_, .f32⟩
  | .hbm, ⟨37, _⟩ => ⟨S2x512x512, .f32⟩
  | .hbm, ⟨38, _⟩ => ⟨S2x512x512, .f32⟩
  | .hbm, ⟨39, _⟩ => ⟨S_, .f32⟩
  | .hbm, ⟨40, _⟩ => ⟨S2x512x512, .f32⟩
  | .hbm, ⟨41, _⟩ => ⟨S2x512x512, .f32⟩
  | _, _ => ⟨S2x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_cst : Ref sig .tc := ⟨.hbm, 19, rfl⟩
abbrev main_call0_v0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call1_cst : Ref sig .tc := ⟨.hbm, 26, rfl⟩
abbrev main_call1_v0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst : Ref sig .tc := ⟨.hbm, 36, rfl⟩
abbrev main_v25 : Ref sig .tc := ⟨.hbm, 37, rfl⟩
abbrev main_v26 : Ref sig .tc := ⟨.hbm, 38, rfl⟩
abbrev main_cst_0 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]

class Facts₀ : Prop where
  slices_S1024x512_S512x512_0_0 : S1024x512.Slices ![0, 0] S512x512
  slices_S1024x512_S512x512_512_0 : S1024x512.Slices ![512, 0] S512x512
  bcast_S2x512x512_S2x512x1x512_0_1_3 : S2x512x512.BroadcastsInDim S2x512x1x512 (![0, 1, 3] : Fin 3 → Fin S2x512x1x512.rank)
  bcast_S2x512x512_S2x1x512x512_0_2_3 : S2x512x512.BroadcastsInDim S2x1x512x512 (![0, 2, 3] : Fin 3 → Fin S2x1x512x512.rank)
  bcast_S2x512x1x512_S2x512x512x512_0_1_2_3 : S2x512x1x512.BroadcastsInDim S2x512x512x512 (![0, 1, 2, 3] : Fin 4 → Fin S2x512x512x512.rank)
  bcast_S2x1x512x512_S2x512x512x512_0_1_2_3 : S2x1x512x512.BroadcastsInDim S2x512x512x512 (![0, 1, 2, 3] : Fin 4 → Fin S2x512x512x512.rank)
  bcast_S512_S1x1x1x512_3 : S512.BroadcastsInDim S1x1x1x512 (![3] : Fin 1 → Fin S1x1x1x512.rank)
  bcast_S1x1x1x512_S2x512x512x512_0_1_2_3 : S1x1x1x512.BroadcastsInDim S2x512x512x512 (![0, 1, 2, 3] : Fin 4 → Fin S2x512x512x512.rank)
  bcast_S_S2x512x512x512 : S_.BroadcastsInDim S2x512x512x512 (![] : Fin 0 → Fin S2x512x512x512.rank)
  bcast_S256_S1x1x1x256_3 : S256.BroadcastsInDim S1x1x1x256 (![3] : Fin 1 → Fin S1x1x1x256.rank)
  bcast_S1x1x1x256_S2x512x512x256_0_1_2_3 : S1x1x1x256.BroadcastsInDim S2x512x512x256 (![0, 1, 2, 3] : Fin 4 → Fin S2x512x512x256.rank)
  bcast_S_S2x512x512x256 : S_.BroadcastsInDim S2x512x512x256 (![] : Fin 0 → Fin S2x512x512x256.rank)
  bcast_S1_S1x1x1x1_3 : S1.BroadcastsInDim S1x1x1x1 (![3] : Fin 1 → Fin S1x1x1x1.rank)
  bcast_S1x1x1x1_S2x512x512x1_0_1_2_3 : S1x1x1x1.BroadcastsInDim S2x512x512x1 (![0, 1, 2, 3] : Fin 4 → Fin S2x512x512x1.rank)
  shapeCasts_S2x512x512x1_S2x512x512 : S2x512x512x1.ShapeCasts S2x512x512
  bcast_S_S2x512x512 : S_.BroadcastsInDim S2x512x512 (![] : Fin 0 → Fin S2x512x512.rank)
  dot_S2x512x512_S512x512_S2x512x512_2_0_01_1_n_n_wf : DotDims.WF S2x512x512 S512x512 S2x512x512 [2] [0] [0, 1] [1] [] []
  dot_S2x512x512x512_S512x256_S2x512x512x256_3_0_012_1_n_n_wf : DotDims.WF S2x512x512x512 S512x256 S2x512x512x256 [3] [0] [0, 1, 2] [1] [] []
  dot_S2x512x512x256_S256x1_S2x512x512x1_3_0_012_1_n_n_wf : DotDims.WF S2x512x512x256 S256x1 S2x512x512x1 [3] [0] [0, 1, 2] [1] [] []

variable [Facts₀]

def dot_S2x512x512_S512x512_S2x512x512_2_0_01_1_n_n : DotDims S2x512x512 S512x512 S2x512x512 where
  lhsContracting := [2]
  rhsContracting := [0]
  lhsNonContracting := [0, 1]
  rhsNonContracting := [1]
  lhsBatch := []
  rhsBatch := []
  wf := dot_S2x512x512_S512x512_S2x512x512_2_0_01_1_n_n_wf
def dot_S2x512x512x512_S512x256_S2x512x512x256_3_0_012_1_n_n : DotDims S2x512x512x512 S512x256 S2x512x512x256 where
  lhsContracting := [3]
  rhsContracting := [0]
  lhsNonContracting := [0, 1, 2]
  rhsNonContracting := [1]
  lhsBatch := []
  rhsBatch := []
  wf := dot_S2x512x512x512_S512x256_S2x512x512x256_3_0_012_1_n_n_wf
def dot_S2x512x512x256_S256x1_S2x512x512x1_3_0_012_1_n_n : DotDims S2x512x512x256 S256x1 S2x512x512x1 where
  lhsContracting := [3]
  rhsContracting := [0]
  lhsNonContracting := [0, 1, 2]
  rhsNonContracting := [1]
  lhsBatch := []
  rhsBatch := []
  wf := dot_S2x512x512x256_S256x1_S2x512x512x1_3_0_012_1_n_n_wf

class Facts : Prop extends Facts₀ where

variable [Facts]
-- ==== Proof.KernelRun.lean ====
/-
  The kernel program's run with its result named.

  The program is a stretch of host operations (the two halves of W1 sliced out) followed by two kernel regions. Run
  from any memory, every weakly fair execution ends with every unscoped buffer at the contents the segments leave, one
  after the other: the launch memory through the host stretch, then region 0's arrays at what its write-backs leave,
  then region 1's. So the result buffer ends at region 1's output array after its last write-back, and the arguments,
  which nothing writes, end as launched.
-/
import proofs.«158015_j68564857913750_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents
    and the arguments as launched. -/
theorem run : θ_run defs (onTc (τ := τ) (main (F := F))) ⟨m, fun _ => 0, ρ⟩ (fun r => ∀ c : Dev nD,
      r.2.mem ((c.tc : Thread nD τ).loc main_v3) = W3 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v3 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c)⟩)

end Cert.KernelIdeal.Whole

end
-- ==== Proof.Mat.lean ====
/-
  The kernel's three matrix products read at an index.

  At the extended reals a product into a zero accumulator, read at row `m` and column `n`, is the plain sum over the
  shared axis of the left operand's row `m` times the right operand's column `n`: the contraction index of the
  product's dimension record is its one coordinate, the left index keeps the row and takes that coordinate as its
  column, the right index takes it as its row and keeps the column.
-/
import proofs.«158015_j68564857913750_2_alg».proof.Proof.Gen.KernelIdeal
import Idealize.ShloMosaic.Lib.ValueIdx
import Idealize.ShloMosaic.PureOps.Ideal.Laws

noncomputable section

namespace Cert.KernelIdeal.Mat

open Cert.KernelIdeal Cert.KernelIdeal.Gen Idealize.ShloMosaic Idealize.ShloMosaic.ValueIdx

/-! ### The projection's product, [512, 512] by [512, 512] -/

theorem proj_l0 (j : S512x512.Idx) (q : dot_S512x512_S512x512_S512x512_1_0_0_1_n_n.contr.Idx) : (dot_S512x512_S512x512_S512x512_1_0_0_1_n_n.lhsIdx j q 0).val = (j 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
theorem proj_l1 (j : S512x512.Idx) (q : dot_S512x512_S512x512_S512x512_1_0_0_1_n_n.contr.Idx) : (dot_S512x512_S512x512_S512x512_1_0_0_1_n_n.lhsIdx j q 1).val = (q ⟨0, by decide⟩).val :=
  dot_S512x512_S512x512_S512x512_1_0_0_1_n_n.lhsIdx_val_of_single rfl j q
theorem proj_r0 (j : S512x512.Idx) (q : dot_S512x512_S512x512_S512x512_1_0_0_1_n_n.contr.Idx) : (dot_S512x512_S512x512_S512x512_1_0_0_1_n_n.rhsIdx j q 0).val = (q ⟨0, by decide⟩).val :=
  dot_S512x512_S512x512_S512x512_1_0_0_1_n_n.rhsIdx_val_of_single rfl j q
theorem proj_r1 (j : S512x512.Idx) (q : dot_S512x512_S512x512_S512x512_1_0_0_1_n_n.contr.Idx) : (dot_S512x512_S512x512_S512x512_1_0_0_1_n_n.rhsIdx j q 1).val = (j 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- The projection's product, [512, 512] by [512, 512], read at row `m` and column `n`. -/
theorem proj_apply (l : FVec Ideal S512x512 .bf16) (r : FVec Ideal S512x512 .bf16) (m : Fin 512) (n : Fin 512) :
    matmul dot_S512x512_S512x512_S512x512_1_0_0_1_n_n none l r (constant S512x512 .f32 0x00000000#32) (ix2 m n)
      = ∑ k : Fin 512, l (ix2 m k) * r (ix2 k n) := by
  simp only [matmul]
  rw [Ideal.matmul_constant_zero_apply, ← Equiv.sum_comp (contrEquiv1 dot_S512x512_S512x512_S512x512_1_0_0_1_n_n 512 rfl rfl).symm]
  refine Finset.sum_congr rfl fun k _ => ?_
  have hk := contrEquiv1_symm_val dot_S512x512_S512x512_S512x512_1_0_0_1_n_n 512 rfl rfl k
  have el : dot_S512x512_S512x512_S512x512_1_0_0_1_n_n.lhsIdx (ix2 m n) ((contrEquiv1 dot_S512x512_S512x512_S512x512_1_0_0_1_n_n 512 rfl rfl).symm k) = ix2 m k :=
    funext fun a => Fin.ext (by
      match a with
      | ⟨0, _⟩ => exact proj_l0 _ _
      | ⟨1, _⟩ => exact (proj_l1 _ _).trans hk)
  have er : dot_S512x512_S512x512_S512x512_1_0_0_1_n_n.rhsIdx (ix2 m n) ((contrEquiv1 dot_S512x512_S512x512_S512x512_1_0_0_1_n_n 512 rfl rfl).symm k) = ix2 k n :=
    funext fun a => Fin.ext (by
      match a with
      | ⟨0, _⟩ => exact (proj_r0 _ _).trans hk
      | ⟨1, _⟩ => exact proj_r1 _ _)
  rw [el, er]

/-! ### The second layer's product, [8192, 512] by [512, 256] -/

theorem hidden_l0 (j : S8192x256.Idx) (q : dot_S8192x512_S512x256_S8192x256_1_0_0_1_n_n.contr.Idx) : (dot_S8192x512_S512x256_S8192x256_1_0_0_1_n_n.lhsIdx j q 0).val = (j 0).val := by
  unfold DotDims.lhsIdx
  rw [dif_neg (show ¬(0 : Fin S8192x512.rank) ∈ dot_S8192x512_S512x256_S8192x256_1_0_0_1_n_n.lhsBatch by decide), dif_pos (show (0 : Fin S8192x512.rank) ∈ dot_S8192x512_S512x256_S8192x256_1_0_0_1_n_n.lhsNonContracting by decide)]
  rfl
theorem hidden_l1 (j : S8192x256.Idx) (q : dot_S8192x512_S512x256_S8192x256_1_0_0_1_n_n.contr.Idx) : (dot_S8192x512_S512x256_S8192x256_1_0_0_1_n_n.lhsIdx j q 1).val = (q ⟨0, by decide⟩).val :=
  dot_S8192x512_S512x256_S8192x256_1_0_0_1_n_n.lhsIdx_val_of_single rfl j q
theorem hidden_r0 (j : S8192x256.Idx) (q : dot_S8192x512_S512x256_S8192x256_1_0_0_1_n_n.contr.Idx) : (dot_S8192x512_S512x256_S8192x256_1_0_0_1_n_n.rhsIdx j q 0).val = (q ⟨0, by decide⟩).val :=
  dot_S8192x512_S512x256_S8192x256_1_0_0_1_n_n.rhsIdx_val_of_single rfl j q
theorem hidden_r1 (j : S8192x256.Idx) (q : dot_S8192x512_S512x256_S8192x256_1_0_0_1_n_n.contr.Idx) : (dot_S8192x512_S512x256_S8192x256_1_0_0_1_n_n.rhsIdx j q 1).val = (j 1).val := by
  unfold DotDims.rhsIdx
  rw [dif_neg (show ¬(1 : Fin S512x256.rank) ∈ dot_S8192x512_S512x256_S8192x256_1_0_0_1_n_n.rhsBatch by decide), dif_pos (show (1 : Fin S512x256.rank) ∈ dot_S8192x512_S512x256_S8192x256_1_0_0_1_n_n.rhsNonContracting by decide)]
  rfl

/-- The second layer's product, [8192, 512] by [512, 256], read at row `m` and column `n`. -/
theorem hidden_apply (l : FVec Ideal S8192x512 .bf16) (r : FVec Ideal S512x256 .bf16) (m : Fin 8192) (n : Fin 256) :
    matmul dot_S8192x512_S512x256_S8192x256_1_0_0_1_n_n none l r (constant S8192x256 .f32 0x00000000#32) (ix2 m n)
      = ∑ k : Fin 512, l (ix2 m k) * r (ix2 k n) := by
  simp only [matmul]
  rw [Ideal.matmul_constant_zero_apply, ← Equiv.sum_comp (contrEquiv1 dot_S8192x512_S512x256_S8192x256_1_0_0_1_n_n 512 rfl rfl).symm]
  refine Finset.sum_congr rfl fun k _ => ?_
  have hk := contrEquiv1_symm_val dot_S8192x512_S512x256_S8192x256_1_0_0_1_n_n 512 rfl rfl k
  have el : dot_S8192x512_S512x256_S8192x256_1_0_0_1_n_n.lhsIdx (ix2 m n) ((contrEquiv1 dot_S8192x512_S512x256_S8192x256_1_0_0_1_n_n 512 rfl rfl).symm k) = ix2 m k :=
    funext fun a => Fin.ext (by
      match a with
      | ⟨0, _⟩ => exact hidden_l0 _ _
      | ⟨1, _⟩ => exact (hidden_l1 _ _).trans hk)
  have er : dot_S8192x512_S512x256_S8192x256_1_0_0_1_n_n.rhsIdx (ix2 m n) ((contrEquiv1 dot_S8192x512_S512x256_S8192x256_1_0_0_1_n_n 512 rfl rfl).symm k) = ix2 k n :=
    funext fun a => Fin.ext (by
      match a with
      | ⟨0, _⟩ => exact (hidden_r0 _ _).trans hk
      | ⟨1, _⟩ => exact hidden_r1 _ _)
  rw [el, er]

/-! ### The third layer's product, [8192, 256] by [256, 1] -/

theorem logit_l0 (j : S8192x1.Idx) (q : dot_S8192x256_S256x1_S8192x1_1_0_0_1_n_n.contr.Idx) : (dot_S8192x256_S256x1_S8192x1_1_0_0_1_n_n.lhsIdx j q 0).val = (j 0).val := by
  unfold DotDims.lhsIdx
  rw [dif_neg (show ¬(0 : Fin S8192x256.rank) ∈ dot_S8192x256_S256x1_S8192x1_1_0_0_1_n_n.lhsBatch by decide), dif_pos (show (0 : Fin S8192x256.rank) ∈ dot_S8192x256_S256x1_S8192x1_1_0_0_1_n_n.lhsNonContracting by decide)]
  rfl
theorem logit_l1 (j : S8192x1.Idx) (q : dot_S8192x256_S256x1_S8192x1_1_0_0_1_n_n.contr.Idx) : (dot_S8192x256_S256x1_S8192x1_1_0_0_1_n_n.lhsIdx j q 1).val = (q ⟨0, by decide⟩).val :=
  dot_S8192x256_S256x1_S8192x1_1_0_0_1_n_n.lhsIdx_val_of_single rfl j q
theorem logit_r0 (j : S8192x1.Idx) (q : dot_S8192x256_S256x1_S8192x1_1_0_0_1_n_n.contr.Idx) : (dot_S8192x256_S256x1_S8192x1_1_0_0_1_n_n.rhsIdx j q 0).val = (q ⟨0, by decide⟩).val :=
  dot_S8192x256_S256x1_S8192x1_1_0_0_1_n_n.rhsIdx_val_of_single rfl j q
theorem logit_r1 (j : S8192x1.Idx) (q : dot_S8192x256_S256x1_S8192x1_1_0_0_1_n_n.contr.Idx) : (dot_S8192x256_S256x1_S8192x1_1_0_0_1_n_n.rhsIdx j q 1).val = (j 1).val := by
  unfold DotDims.rhsIdx
  rw [dif_neg (show ¬(1 : Fin S256x1.rank) ∈ dot_S8192x256_S256x1_S8192x1_1_0_0_1_n_n.rhsBatch by decide), dif_pos (show (1 : Fin S256x1.rank) ∈ dot_S8192x256_S256x1_S8192x1_1_0_0_1_n_n.rhsNonContracting by decide)]
  rfl

/-- The third layer's product, [8192, 256] by [256, 1], read at row `m` and column `n`. -/
theorem logit_apply (l : FVec Ideal S8192x256 .bf16) (r : FVec Ideal S256x1 .bf16) (m : Fin 8192) (n : Fin 1) :
    matmul dot_S8192x256_S256x1_S8192x1_1_0_0_1_n_n none l r (constant S8192x1 .f32 0x00000000#32) (ix2 m n)
      = ∑ k : Fin 256, l (ix2 m k) * r (ix2 k n) := by
  simp only [matmul]
  rw [Ideal.matmul_constant_zero_apply, ← Equiv.sum_comp (contrEquiv1 dot_S8192x256_S256x1_S8192x1_1_0_0_1_n_n 256 rfl rfl).symm]
  refine Finset.sum_congr rfl fun k _ => ?_
  have hk := contrEquiv1_symm_val dot_S8192x256_S256x1_S8192x1_1_0_0_1_n_n 256 rfl rfl k
  have el : dot_S8192x256_S256x1_S8192x1_1_0_0_1_n_n.lhsIdx (ix2 m n) ((contrEquiv1 dot_S8192x256_S256x1_S8192x1_1_0_0_1_n_n 256 rfl rfl).symm k) = ix2 m k :=
    funext fun a => Fin.ext (by
      match a with
      | ⟨0, _⟩ => exact logit_l0 _ _
      | ⟨1, _⟩ => exact (logit_l1 _ _).trans hk)
  have er : dot_S8192x256_S256x1_S8192x1_1_0_0_1_n_n.rhsIdx (ix2 m n) ((contrEquiv1 dot_S8192x256_S256x1_S8192x1_1_0_0_1_n_n 256 rfl rfl).symm k) = ix2 k n :=
    funext fun a => Fin.ext (by
      match a with
      | ⟨0, _⟩ => exact (logit_r0 _ _).trans hk
      | ⟨1, _⟩ => exact logit_r1 _ _)
  rw [el, er]

end Cert.KernelIdeal.Mat

end
-- ==== Proof.PayA.lean ====
/-
  Region 0's two stores read at an index.

  The body casts its feature block [1, 512, 512] to a matrix, multiplies it by the block of a half of W1, and stores the
  product, cast back to [1, 512, 512]. At the extended reals the changes of float format are the identity and the
  product into the zero accumulator is the plain sum, so the stored entry `(z, s, h)` is the sum over `g` of the
  feature block at `(z, s, g)` times the weight block at `(g, h)`.
-/
import proofs.«158015_j68564857913750_2_alg».proof.Proof.Gen.KernelIdeal.Skeleton
import proofs.«158015_j68564857913750_2_alg».proof.Proof.Mat
import Idealize.ShloMosaic.Lib.ValueLayout

noncomputable section

namespace Cert.KernelIdeal.Pay

open Cert.KernelIdeal Cert.KernelIdeal.Gen Idealize.ShloMosaic Idealize.ShloMosaic.ValueIdx

/-- The feature block as a matrix, at `(s, g)`. -/
theorem featMat_apply (x0 : Vec Ideal S1x512x512 .f32) (s g : Fin 512) :
    k0_pay1 x0 (ix2 s g) = x0 (ix3 (0 : Fin 1) s g) := by
  unfold k0_pay1
  exact shapeCast_1ab_ab_apply x0 shapeCasts_S1x512x512_S512x512 s g

/-- What either store writes, for either half's weight block `w`. -/
theorem proj_entry (x0 : Vec Ideal S1x512x512 .f32) (w : Vec Ideal S512x512 .f32) (z : Fin 1) (s h : Fin 512) :
    shapeCast S1x512x512 (truncf .bf16 (matmul dot_S512x512_S512x512_S512x512_1_0_0_1_n_n none (k0_pay1 x0)
        (truncf .bf16 (shapeCast S512x512 w shapeCasts_S512x512_S512x512) bitsLt_bf16_f32)
        (constant S512x512 .f32 0x00000000#32)) bitsLt_bf16_f32) shapeCasts_S512x512_S1x512x512 (ix3 z s h)
      = ∑ g : Fin 512, x0 (ix3 (0 : Fin 1) s g) * w (ix2 g h) := by
  refine (shapeCast_ab_1ab_apply _ shapeCasts_S512x512_S1x512x512 z s h).trans ?_
  refine (Mat.proj_apply _ _ s h).trans ?_
  refine Finset.sum_congr rfl fun g _ => ?_
  rw [featMat_apply, shapeCast_self]
  rfl

theorem pay2_apply (x0 : Vec Ideal S1x512x512 .f32) (w : Vec Ideal S512x512 .f32) (z : Fin 1) (s h : Fin 512) :
    k0_pay2 x0 w (ix3 z s h) = ∑ g : Fin 512, x0 (ix3 (0 : Fin 1) s g) * w (ix2 g h) :=
  proj_entry x0 w z s h

theorem pay3_apply (x0 : Vec Ideal S1x512x512 .f32) (w : Vec Ideal S512x512 .f32) (z : Fin 1) (s h : Fin 512) :
    k0_pay3 x0 w (ix3 z s h) = ∑ g : Fin 512, x0 (ix3 (0 : Fin 1) s g) * w (ix2 g h) :=
  proj_entry x0 w z s h

end Cert.KernelIdeal.Pay

end
-- ==== Proof.Region0.lean ====
/-
  Region 0's two output arrays after its last write-back, as functions of the arrays the region finds.

  The grid has one point per batch. At batch `b` the body sees the features' block `b` (all 512 rows), the whole of
  each half of W1, and stores into block `b` of each output the product of the feature block with that half. The
  output blocks tile the arrays, one per point, so after the run the output at `(b, s, h)` is the sum over `g` of the
  features at `(b, s, g)` times the half at `(g, h)`.
-/
import proofs.«158015_j68564857913750_2_alg».proof.Proof.Gen.KernelIdeal.Frame
import proofs.«158015_j68564857913750_2_alg».proof.Proof.PayA
import Idealize.ShloMosaic.Lib.Pipeline.Value

noncomputable section

namespace Cert.KernelIdeal.Reg0

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- A row of the features against a column of a [512, 512] weight array `w`. -/
def proj (f : S2x512x512.Idx → EReal) (w : S512x512.Idx → EReal) : S2x512x512.Idx → EReal :=
  fun i => ∑ g : Fin 512, f (ix3 (i 0) (i 1) g) * w (ix2 g (i 2))

/-- Either store's entry at an index of the block, by its coordinates. -/
theorem entry2 (x0 : Vec Ideal S1x512x512 .f32) (w : Vec Ideal S512x512 .f32) (j : S1x512x512.Idx) :
    k0_pay2 x0 w j = ∑ g : Fin 512, x0 (ix3 (0 : Fin 1) (j 1) g) * w (ix2 g (j 2)) := by
  exact (congrArg (k0_pay2 x0 w) (eq_ix3 j)).trans (Pay.pay2_apply x0 w (j 0) (j 1) (j 2))
theorem entry3 (x0 : Vec Ideal S1x512x512 .f32) (w : Vec Ideal S512x512 .f32) (j : S1x512x512.Idx) :
    k0_pay3 x0 w j = ∑ g : Fin 512, x0 (ix3 (0 : Fin 1) (j 1) g) * w (ix2 g (j 2)) := by
  exact (congrArg (k0_pay3 x0 w) (eq_ix3 j)).trans (Pay.pay3_apply x0 w (j 0) (j 1) (j 2))

/-- The printed index maps over the two points: the feature window and both output windows move along the batch
    axis together and stay at 0 on the others; the weight windows stay at 0. -/
theorem idx_facts : ∀ t : Fin cfg0.N,
    win0_0.index t (0 : Fin 3) = win0_3.index t (0 : Fin 3) ∧ win0_4.index t (0 : Fin 3) = win0_3.index t (0 : Fin 3)
    ∧ win0_0.index t (1 : Fin 3) = 0 ∧ win0_0.index t (2 : Fin 3) = 0
    ∧ win0_3.index t (1 : Fin 3) = 0 ∧ win0_3.index t (2 : Fin 3) = 0
    ∧ win0_4.index t (1 : Fin 3) = 0 ∧ win0_4.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) ≤ 1 :=
  (by decide +kernel : ∀ t : Fin grid0.N, _)

/-- Every batch is some point's. -/
theorem idx_onto : ∀ q0 : Fin 2, ∃ t : Fin cfg0.N, win0_3.index t (0 : Fin 3) = q0.val :=
  (by decide +kernel : ∀ q0 : Fin 2, ∃ t : Fin grid0.N, win0_3.index t (0 : Fin 3) = q0.val)

/-- WHAT POINT `t` WRITES BACK into the first output is block `t` of the projection against the first weight array. -/
theorem flushed3 (c : Dev nD) (t : Fin cfg0.N) :
    (dat0 V c).flushed 3 t = ((cfg0.win 3).blk t).view.read (Elt Ideal) (proj (V c main_arg0) (V c main_v0)) := by
  show (cfg0.win 3).cut (grid0.coords t) ((dat0 V c).after 3 t) = _
  rw [after0_3]
  unfold out0_3
  rw [View.canon_unit_zero hz3]
  simp only [View.ld_unit_zero (S := S1x512x512) hz3, View.ld_unit_zero (S := S512x512) hz2]
  obtain ⟨e0, e4, e01, e02, e31, e32, e41, e42, e10, e11, e20, e21, e3⟩ := idx_facts t
  funext j
  show k0_pay2 (iblk0 V c 0 t) (iblk0 V c 1 t) j = proj (V c main_arg0) (V c main_v0) (((cfg0.win 3).blk t).view.emb j)
  rw [entry2 (iblk0 V c 0 t) (iblk0 V c 1 t) j]
  unfold proj
  have hj0 : (j 0).val < 1 := (j 0).isLt
  refine Finset.sum_congr rfl fun g _ => ?_
  have r0 : iblk0 V c 0 t (ix3 (0 : Fin 1) (j 1) g) = (V c main_arg0 : S2x512x512.Idx → EReal) (ix3 ((((cfg0.win 3).blk t).view.emb j) 0) ((((cfg0.win 3).blk t).view.emb j) 1) g) := by
    show (V c main_arg0 : S2x512x512.Idx → EReal) (((cfg0.win 0).blk t).view.emb (ix3 (0 : Fin 1) (j 1) g)) = _
    refine congrArg (V c main_arg0 : S2x512x512.Idx → EReal) (funext fun a => Fin.ext ?_)
    match a with
    | ⟨0, _⟩ => show win0_0.index t (0 : Fin 3) * 1 + 1 * 0 = win0_3.index t (0 : Fin 3) * 1 + 1 * (j 0).val; omega
    | ⟨1, _⟩ => show win0_0.index t (1 : Fin 3) * 512 + 1 * (j 1).val = win0_3.index t (1 : Fin 3) * 512 + 1 * (j 1).val; omega
    | ⟨2, _⟩ => show win0_0.index t (2 : Fin 3) * 512 + 1 * g.val = g.val; omega
  have r1 : iblk0 V c 1 t (ix2 g (j 2)) = (V c main_v0 : S512x512.Idx → EReal) (ix2 g ((((cfg0.win 3).blk t).view.emb j) 2)) := by
    show (V c main_v0 : S512x512.Idx → EReal) (((cfg0.win 1).blk t).view.emb (ix2 g (j 2))) = _
    refine congrArg (V c main_v0 : S512x512.Idx → EReal) (funext fun a => Fin.ext ?_)
    match a with
    | ⟨0, _⟩ => show win0_1.index t (0 : Fin 2) * 512 + 1 * g.val = g.val; omega
    | ⟨1, _⟩ => show win0_1.index t (1 : Fin 2) * 512 + 1 * (j 2).val = win0_3.index t (2 : Fin 3) * 512 + 1 * (j 2).val; omega
  exact congrArg₂ (fun a b : EReal => a * b) r0 r1

/-- The same for the second output, against the second weight array. -/
theorem flushed4 (c : Dev nD) (t : Fin cfg0.N) :
    (dat0 V c).flushed 4 t = ((cfg0.win 4).blk t).view.read (Elt Ideal) (proj (V c main_arg0) (V c main_v1)) := by
  show (cfg0.win 4).cut (grid0.coords t) ((dat0 V c).after 4 t) = _
  rw [after0_4]
  unfold out0_4
  rw [View.canon_unit_zero hz3]
  simp only [View.ld_unit_zero (S := S1x512x512) hz3, View.ld_unit_zero (S := S512x512) hz2]
  obtain ⟨e0, e4, e01, e02, e31, e32, e41, e42, e10, e11, e20, e21, e3⟩ := idx_facts t
  funext j
  show k0_pay3 (iblk0 V c 0 t) (iblk0 V c 2 t) j = proj (V c main_arg0) (V c main_v1) (((cfg0.win 4).blk t).view.emb j)
  rw [entry3 (iblk0 V c 0 t) (iblk0 V c 2 t) j]
  unfold proj
  have hj0 : (j 0).val < 1 := (j 0).isLt
  refine Finset.sum_congr rfl fun g _ => ?_
  have r0 : iblk0 V c 0 t (ix3 (0 : Fin 1) (j 1) g) = (V c main_arg0 : S2x512x512.Idx → EReal) (ix3 ((((cfg0.win 4).blk t).view.emb j) 0) ((((cfg0.win 4).blk t).view.emb j) 1) g) := by
    show (V c main_arg0 : S2x512x512.Idx → EReal) (((cfg0.win 0).blk t).view.emb (ix3 (0 : Fin 1) (j 1) g)) = _
    refine congrArg (V c main_arg0 : S2x512x512.Idx → EReal) (funext fun a => Fin.ext ?_)
    match a with
    | ⟨0, _⟩ => show win0_0.index t (0 : Fin 3) * 1 + 1 * 0 = win0_4.index t (0 : Fin 3) * 1 + 1 * (j 0).val; omega
    | ⟨1, _⟩ => show win0_0.index t (1 : Fin 3) * 512 + 1 * (j 1).val = win0_4.index t (1 : Fin 3) * 512 + 1 * (j 1).val; omega
    | ⟨2, _⟩ => show win0_0.index t (2 : Fin 3) * 512 + 1 * g.val = g.val; omega
  have r1 : iblk0 V c 2 t (ix2 g (j 2)) = (V c main_v1 : S512x512.Idx → EReal) (ix2 g ((((cfg0.win 4).blk t).view.emb j) 2)) := by
    show (V c main_v1 : S512x512.Idx → EReal) (((cfg0.win 2).blk t).view.emb (ix2 g (j 2))) = _
    refine congrArg (V c main_v1 : S512x512.Idx → EReal) (funext fun a => Fin.ext ?_)
    match a with
    | ⟨0, _⟩ => show win0_2.index t (0 : Fin 2) * 512 + 1 * g.val = g.val; omega
    | ⟨1, _⟩ => show win0_2.index t (1 : Fin 2) * 512 + 1 * (j 2).val = win0_4.index t (2 : Fin 3) * 512 + 1 * (j 2).val; omega
  exact congrArg₂ (fun a b : EReal => a * b) r0 r1

/-- An index of the first output is in point `t`'s block iff each coordinate is in the block's range on its axis. -/
theorem mem_blk3 (t : Fin cfg0.N) (i : S2x512x512.Idx) :
    i ∈ ((cfg0.win 3).blk t).view.set ↔ ∀ a : Fin 3, win0_3.index t a * S1x512x512.size a ≤ (i a).val ∧ (i a).val < win0_3.index t a * S1x512x512.size a + S1x512x512.size a := by
  show i ∈ ((View.whole main_v2_0).slice (win0_3.rect t)).set ↔ _
  rw [View.set_slice_whole, Rect.mem_set_unit]
  exact Iff.rfl
theorem mem_blk4 (t : Fin cfg0.N) (i : S2x512x512.Idx) :
    i ∈ ((cfg0.win 4).blk t).view.set ↔ ∀ a : Fin 3, win0_4.index t a * S1x512x512.size a ≤ (i a).val ∧ (i a).val < win0_4.index t a * S1x512x512.size a + S1x512x512.size a := by
  show i ∈ ((View.whole main_v2_1).slice (win0_4.rect t)).set ↔ _
  rw [View.set_slice_whole, Rect.mem_set_unit]
  exact Iff.rfl

/-- Every index of the first output is in the block of the point of its batch. -/
theorem cover3 (i : S2x512x512.Idx) : ∃ t : Fin cfg0.N, (cfg0.win 3).flush t = true ∧ i ∈ ((cfg0.win 3).blk t).view.set := by
  have hi0 : (i 0).val < 2 := (i 0).isLt
  have hi1 : (i 1).val < 512 := (i 1).isLt
  have hi2 : (i 2).val < 512 := (i 2).isLt
  obtain ⟨t, ht⟩ := idx_onto ⟨(i 0).val, hi0⟩
  obtain ⟨e0, e4, e01, e02, e31, e32, e41, e42, e10, e11, e20, e21, e3⟩ := idx_facts t
  have q0 : win0_3.index t (0 : Fin 3) = (i 0).val := ht
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 512 ≤ (i 2).val ∧ (i 2).val < win0_3.index t (2 : Fin 3) * 512 + 512; omega
theorem cover4 (i : S2x512x512.Idx) : ∃ t : Fin cfg0.N, (cfg0.win 4).flush t = true ∧ i ∈ ((cfg0.win 4).blk t).view.set := by
  have hi0 : (i 0).val < 2 := (i 0).isLt
  have hi1 : (i 1).val < 512 := (i 1).isLt
  have hi2 : (i 2).val < 512 := (i 2).isLt
  obtain ⟨t, ht⟩ := idx_onto ⟨(i 0).val, hi0⟩
  obtain ⟨e0, e4, e01, e02, e31, e32, e41, e42, e10, e11, e20, e21, e3⟩ := idx_facts t
  have q0 : win0_3.index t (0 : Fin 3) = (i 0).val := ht
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 512 ≤ (i 2).val ∧ (i 2).val < win0_4.index t (2 : Fin 3) * 512 + 512; omega

/-- THE FIRST OUTPUT ARRAY after the run: the features projected against the first weight array. -/
theorem final3 (c : Dev nD) : (dat0 V c).arrAt 3 cfg0.N = proj (V c main_arg0) (V c main_v0) :=
  (dat0 V c).arrAt_eq_of_cover 3 (proj (V c main_arg0) (V c main_v0)) (fun t _ => flushed3 V c t) cover3
/-- THE SECOND OUTPUT ARRAY after the run: the features projected against the second weight array. -/
theorem final4 (c : Dev nD) : (dat0 V c).arrAt 4 cfg0.N = proj (V c main_arg0) (V c main_v1) :=
  (dat0 V c).arrAt_eq_of_cover 4 (proj (V c main_arg0) (V c main_v1)) (fun t _ => flushed4 V c t) cover4

end Cert.KernelIdeal.Reg0

end
-- ==== Proof.LibPairLayout.lean ====
/-
  Layout operations of rank-2 and rank-3 vectors read at coordinates, for any element type: the forms a kernel
  meets when it adds two row blocks pairwise (`a[:, None, :] + c[None, :, :]`), adds a vector along the last axis,
  flattens the pair axes into one row axis for a matrix product, and folds a one-column result back into a tile.

  • a middle unit axis inserted, [a, c] → [a, 1, c], and that axis broadcast, [a, 1, c] → [a, b, c]: reads row `p`;
  • a leading unit axis broadcast, [1, b, c] → [a, b, c]: reads row `q`;
  • a vector stood up as [1, 1, c] and broadcast to [a, b, c]: reads the vector at the last coordinate;
  • the two leading axes merged, [a, b, c] → [n, c] with n = a·b: row `p·b + q` is the pair `(p, q)`;
  • a one-column matrix folded into a tile, [n, 1] → [a, b]: the tile's `(p, q)` is row `p·b + q`;
  • a [1, 1] matrix broadcast down a column, [1, 1] → [n, 1].
  Each is the library's read of a shape cast (equal row-major positions) or of a broadcast (the operand's unit axes
  read at 0), with both indices written by coordinates so that it applies to a printed operation by unification.
-/
import Idealize.ShloMosaic.Lib.ValueLayout

namespace Cert.LibPairLayout

open Idealize.ShloMosaic Idealize.ShloMosaic.ValueIdx

variable {α : Type}

/-- An `[a, c]` array cast to `[a, 1, c]` reads, at `(p, u, r)`, the operand at `(p, r)`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (r : Fin c) :
    shapeCast ⟨3, ![a, 1, c]⟩ x h (ix3 p u r) = x (ix2 p r) :=
  shapeCast_apply x h _ _ (by
    have hu : u.val = 0 := by omega
    rw [Shape.rowMajor_val_three, Shape.rowMajor_val_two]
    show p.val * c + r.val = (p.val * 1 + u.val) * c + r.val
    rw [hu, Nat.mul_one, Nat.add_zero])

/-- An `[a, 1, c]` array broadcast to `[a, b, c]` reads, at `(p, q, r)`, the operand at `(p, 0, r)`. -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ x h (ix3 p q r) = x (ix3 p (0 : Fin 1) r) := by
  refine broadcastTo_apply x h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- A `[1, b, c]` array broadcast to `[a, b, c]` reads, at `(p, q, r)`, the operand at `(0, q, r)`. -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ x h (ix3 p q r) = x (ix3 (0 : Fin 1) q r) := by
  refine broadcastTo_apply x h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- A `[c]` vector cast to `[1, 1, c]` reads, at `(u, v, r)`, the vector at `r`. -/
theorem shapeCast_c_11c_apply {c : ℕ} (x : (⟨1, ![c]⟩ : Shape).Idx → α)
    (h : (⟨1, ![c]⟩ : Shape).ShapeCasts ⟨3, ![1, 1, c]⟩) (u v : Fin 1) (r : Fin c) :
    shapeCast ⟨3, ![1, 1, c]⟩ x h (ix3 u v r) = x (ix1 r) :=
  shapeCast_apply x h _ _ (by
    have hu : u.val = 0 := by omega
    have hv : v.val = 0 := by omega
    rw [Shape.rowMajor_val_three, Shape.rowMajor_val_one]
    show r.val = (u.val * 1 + v.val) * c + r.val
    rw [hu, hv]; omega)

/-- A `[1, 1, c]` array broadcast to `[a, b, c]` reads, at `(p, q, r)`, the operand at `(0, 0, r)`. -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (r : Fin c) :
    broadcastTo ⟨3, ![a, b, c]⟩ x h (ix3 p q r) = x (ix3 (0 : Fin 1) (0 : Fin 1) r) := by
  refine broadcastTo_apply x h (ix3 p q r) (ix3 (0 : Fin 1) (0 : Fin 1) r) fun ax => ?_
  match ax with
  | ⟨0, _⟩ => rfl
  | ⟨1, _⟩ => rfl
  | ⟨2, _⟩ =>
    show r.val = if c = 1 then 0 else r.val
    split
    · have := r.isLt; omega
    · rfl

/-- An `[a, b, c]` array cast to `[n, c]` (so `n = a·b`) reads, at row `k = p·b + q` and column `r`, the operand at
    `(p, q, r)`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (r : Fin c) (k : Fin n)
    (hk : k.val = p.val * b + q.val) :
    shapeCast ⟨2, ![n, c]⟩ x h (ix2 k r) = x (ix3 p q r) :=
  shapeCast_apply x h _ _ (by
    rw [Shape.rowMajor_val_three, Shape.rowMajor_val_two]
    show (p.val * b + q.val) * c + r.val = k.val * c + r.val
    rw [hk])

/-- An `[n, 1]` column cast to an `[a, b]` tile (so `n = a·b`) reads, at `(p, q)`, the column at row `k = p·b + q`. -/
theorem shapeCast_n1_ab_apply {a b n : ℕ} (x : (⟨2, ![n, 1]⟩ : Shape).Idx → α)
    (h : (⟨2, ![n, 1]⟩ : Shape).ShapeCasts ⟨2, ![a, b]⟩) (p : Fin a) (q : Fin b) (k : Fin n)
    (hk : k.val = p.val * b + q.val) :
    shapeCast ⟨2, ![a, b]⟩ x h (ix2 p q) = x (ix2 k (0 : Fin 1)) :=
  shapeCast_apply x h _ _ (by
    rw [Shape.rowMajor_val_two, Shape.rowMajor_val_two]
    show k.val * 1 + 0 = p.val * b + q.val
    rw [hk, Nat.mul_one, Nat.add_zero])

/-- A `[1, 1]` matrix broadcast to an `[n, 1]` column reads its one entry at every row. -/
theorem broadcastTo_11_n1_apply {n : ℕ} (x : (⟨2, ![1, 1]⟩ : Shape).Idx → α)
    (h : (⟨2, ![1, 1]⟩ : Shape).Broadcasts ⟨2, ![n, 1]⟩) (k : Fin n) (u : Fin 1) :
    broadcastTo ⟨2, ![n, 1]⟩ x h (ix2 k u) = x (ix2 (0 : Fin 1) (0 : Fin 1)) := by
  refine broadcastTo_apply x h (ix2 k u) (ix2 (0 : Fin 1) (0 : Fin 1)) fun ax => ?_
  match ax with
  | ⟨0, _⟩ => rfl
  | ⟨1, _⟩ => rfl

end Cert.LibPairLayout
-- ==== Proof.Spec.lean ====
/-
  The function both programs compute, written once over the extended reals.

  For features f : [2, 512, 512], W1 : [1024, 512] (its upper half W1[0:512] and its lower half W1[512:1024]),
  b1 : [512], W2 : [512, 256], b2 : [256], W3 : [256, 1], b3 : [1]:
    A(b, s, h) = sum over g of f(b, s, g) * W1(g, h)            (a row of f against the upper half)
    C(b, s, h) = sum over g of f(b, s, g) * W1(512 + g, h)      (a row of f against the lower half)
    H1(b, i, j, h) = max(A(b, i, h) + C(b, j, h) + b1(h), 0)
    H2(b, i, j, k) = max((sum over h of H1(b, i, j, h) * W2(h, k)) + b2(k), 0)
    out(b, i, j)   = logistic((sum over k of H2(b, i, j, k) * W3(k, 0)) + b3(0))
  Every sum is a finite sum in the extended reals, every product and maximum the extended reals' own: no law beyond
  the definitions is needed to compare the two programs, because both evaluate exactly this expression, the kernel
  tile by tile and the reference over whole arrays.
-/
import Idealize.ShloMosaic.PureOps.Ideal
import Idealize.ShloMosaic.Lib.ValueIdx

noncomputable section

namespace Cert.PairScore

open Idealize.ShloMosaic Idealize.ShloMosaic.ValueIdx

/-- A row of `f` against column `h` of the upper half of `w1`. -/
def projLo (f : (⟨3, ![2, 512, 512]⟩ : Shape).Idx → EReal) (w1 : (⟨2, ![1024, 512]⟩ : Shape).Idx → EReal)
    (b : Fin 2) (s h : Fin 512) : EReal :=
  ∑ g : Fin 512, f (ix3 b s g) * w1 (ix2 (⟨g.val, by omega⟩ : Fin 1024) h)

/-- A row of `f` against column `h` of the lower half of `w1`. -/
def projHi (f : (⟨3, ![2, 512, 512]⟩ : Shape).Idx → EReal) (w1 : (⟨2, ![1024, 512]⟩ : Shape).Idx → EReal)
    (b : Fin 2) (s h : Fin 512) : EReal :=
  ∑ g : Fin 512, f (ix3 b s g) * w1 (ix2 (⟨512 + g.val, by omega⟩ : Fin 1024) h)

/-- The three layers on top of the two projections, at one pair `(i, j)` of batch `b`: the projections enter as
    arrays `A`, `C : [2, 512, 512]`, whatever computed them. -/
def score (A C : (⟨3, ![2, 512, 512]⟩ : Shape).Idx → EReal) (b1 : (⟨1, ![512]⟩ : Shape).Idx → EReal)
    (w2 : (⟨2, ![512, 256]⟩ : Shape).Idx → EReal) (b2 : (⟨1, ![256]⟩ : Shape).Idx → EReal)
    (w3 : (⟨2, ![256, 1]⟩ : Shape).Idx → EReal) (b3 : (⟨1, ![1]⟩ : Shape).Idx → EReal)
    (b : Fin 2) (i j : Fin 512) : EReal :=
  Ideal.logistic ((∑ k : Fin 256,
      max ((∑ h : Fin 512, max (A (ix3 b i h) + C (ix3 b j h) + b1 (ix1 h)) 0 * w2 (ix2 h k)) + b2 (ix1 k)) 0
        * w3 (ix2 k (0 : Fin 1))) + b3 (ix1 (0 : Fin 1)))

/-- The upper-half projection as an array. -/
def arrLo (f : (⟨3, ![2, 512, 512]⟩ : Shape).Idx → EReal) (w1 : (⟨2, ![1024, 512]⟩ : Shape).Idx → EReal) :
    (⟨3, ![2, 512, 512]⟩ : Shape).Idx → EReal := fun i => projLo f w1 (i 0) (i 1) (i 2)

/-- The lower-half projection as an array. -/
def arrHi (f : (⟨3, ![2, 512, 512]⟩ : Shape).Idx → EReal) (w1 : (⟨2, ![1024, 512]⟩ : Shape).Idx → EReal) :
    (⟨3, ![2, 512, 512]⟩ : Shape).Idx → EReal := fun i => projHi f w1 (i 0) (i 1) (i 2)

/-- The scores over given projections, as an array. -/
def scoreArr (A C : (⟨3, ![2, 512, 512]⟩ : Shape).Idx → EReal) (b1 : (⟨1, ![512]⟩ : Shape).Idx → EReal)
    (w2 : (⟨2, ![512, 256]⟩ : Shape).Idx → EReal) (b2 : (⟨1, ![256]⟩ : Shape).Idx → EReal)
    (w3 : (⟨2, ![256, 1]⟩ : Shape).Idx → EReal) (b3 : (⟨1, ![1]⟩ : Shape).Idx → EReal) :
    (⟨3, ![2, 512, 512]⟩ : Shape).Idx → EReal := fun i => score A C b1 w2 b2 w3 b3 (i 0) (i 1) (i 2)

/-- The whole result: the scores over the two projections of the features. -/
def result (f : (⟨3, ![2, 512, 512]⟩ : Shape).Idx → EReal) (w1 : (⟨2, ![1024, 512]⟩ : Shape).Idx → EReal)
    (b1 : (⟨1, ![512]⟩ : Shape).Idx → EReal) (w2 : (⟨2, ![512, 256]⟩ : Shape).Idx → EReal)
    (b2 : (⟨1, ![256]⟩ : Shape).Idx → EReal) (w3 : (⟨2, ![256, 1]⟩ : Shape).Idx → EReal)
    (b3 : (⟨1, ![1]⟩ : Shape).Idx → EReal) : (⟨3, ![2, 512, 512]⟩ : Shape).Idx → EReal :=
  scoreArr (arrLo f w1) (arrHi f w1) b1 w2 b2 w3 b3

/-- The zero word of either width denotes zero. -/
theorem ofBits_zero_bf16 : Ideal.ofBits .bf16 0x0000#16 = 0 := by simp [Ideal.ofBits, Ideal.ieee]

end Cert.PairScore

end
-- ==== Proof.PayS.lean ====
/-
  Region 1's store read at an index.

  The body takes a block of 64 rows of A, a block of 128 rows of C, and the whole of b1, W2, b2, W3, b3. It adds every
  row of the first block to every row of the second and to b1, takes the maximum with zero, and flattens the 64 × 128
  pairs into 8192 rows (pair `(p, q)` is row `p·128 + q`); multiplies by W2, adds b2, takes the maximum with zero;
  multiplies by W3, adds b3; folds the 8192 logits back into a 64 × 128 tile and applies the logistic function. At the
  extended reals the changes of float format are the identity and each product into a zero accumulator is the plain
  sum, so the stored entry `(z, p, q)` is the score of the pair of row `p` of the first block and row `q` of the second.
  The three stages are named so that each is read on its own.
-/
import proofs.«158015_j68564857913750_2_alg».proof.Proof.Gen.KernelIdeal.Skeleton
import proofs.«158015_j68564857913750_2_alg».proof.Proof.Mat
import proofs.«158015_j68564857913750_2_alg».proof.Proof.LibPairLayout
import proofs.«158015_j68564857913750_2_alg».proof.Proof.Spec
import Idealize.ShloMosaic.Lib.ValueLayout

noncomputable section

namespace Cert.KernelIdeal.Pay

open Cert.KernelIdeal Cert.KernelIdeal.Gen Idealize.ShloMosaic Idealize.ShloMosaic.ValueIdx Cert.LibPairLayout

/-- The first layer over the flattened pairs: `max(a_p + c_q + b1, 0)` at row `p·128 + q`. -/
def lay1 (x0 : Vec Ideal S1x64x512 .bf16) (x1 : Vec Ideal S1x128x512 .bf16) (x2 : Vec Ideal S512 .f32) : FVec Ideal S8192x512 .bf16 :=
  shapeCast S8192x512
    (maximumf
      (addf
        (addf
          (broadcastTo S64x128x512 (shapeCast S64x1x512 (shapeCast S64x512 x0 shapeCasts_S1x64x512_S64x512) shapeCasts_S64x512_S64x1x512) broadcasts_S64x1x512_S64x128x512)
          (broadcastTo S64x128x512 (shapeCast S1x128x512 (shapeCast S128x512 x1 shapeCasts_S1x128x512_S128x512) shapeCasts_S128x512_S1x128x512) broadcasts_S1x128x512_S64x128x512))
        (broadcastTo S64x128x512 (shapeCast S1x1x512 (truncf .bf16 x2 bitsLt_bf16_f32) shapeCasts_S512_S1x1x512) broadcasts_S1x1x512_S64x128x512))
      (broadcast S64x128x512 (Scalar.ofBits (F := Ideal) .bf16 0x0000#16)))
    shapeCasts_S64x128x512_S8192x512

/-- The second layer: `max(h1 · W2 + b2, 0)`. -/
def lay2 (x0 : Vec Ideal S1x64x512 .bf16) (x1 : Vec Ideal S1x128x512 .bf16) (x2 : Vec Ideal S512 .f32)
    (x3 : Vec Ideal S512x256 .f32) (x4 : Vec Ideal S256 .f32) : FVec Ideal S8192x256 .bf16 :=
  truncf .bf16
    (maximumf
      (addf
        (matmul dot_S8192x512_S512x256_S8192x256_1_0_0_1_n_n none (lay1 x0 x1 x2) (truncf .bf16 x3 bitsLt_bf16_f32) (constant S8192x256 .f32 0x00000000#32))
        (broadcastTo S8192x256 (shapeCast S1x256 x4 shapeCasts_S256_S1x256) broadcasts_S1x256_S8192x256))
      (broadcast S8192x256 (Scalar.ofBits (F := Ideal) .f32 0x00000000#32)))
    bitsLt_bf16_f32

/-- The logits: `h2 · W3 + b3`. -/
def lay3 (x0 : Vec Ideal S1x64x512 .bf16) (x1 : Vec Ideal S1x128x512 .bf16) (x2 : Vec Ideal S512 .f32)
    (x3 : Vec Ideal S512x256 .f32) (x4 : Vec Ideal S256 .f32) (x5 : Vec Ideal S256x1 .f32) (x6 : Vec Ideal S1 .f32) : FVec Ideal S8192x1 .f32 :=
  addf
    (matmul dot_S8192x256_S256x1_S8192x1_1_0_0_1_n_n none (lay2 x0 x1 x2 x3 x4) (truncf .bf16 x5 bitsLt_bf16_f32) (constant S8192x1 .f32 0x00000000#32))
    (broadcastTo S8192x1 (shapeCast S1x1 x6 shapeCasts_S1_S1x1) broadcasts_S1x1_S8192x1)

/-- The body's stored value is the logistic of the folded logits, with a unit axis in front. -/
theorem pay_eq (x0 : Vec Ideal S1x64x512 .bf16) (x1 : Vec Ideal S1x128x512 .bf16) (x2 : Vec Ideal S512 .f32)
    (x3 : Vec Ideal S512x256 .f32) (x4 : Vec Ideal S256 .f32) (x5 : Vec Ideal S256x1 .f32) (x6 : Vec Ideal S1 .f32) :
    k1_pay1 (k1_pay2 x0 x1 x2 x3 x4 x5 x6)
      = shapeCast S1x64x128 (logistic (shapeCast S64x128 (lay3 x0 x1 x2 x3 x4 x5 x6) shapeCasts_S8192x1_S64x128)) shapeCasts_S64x128_S1x64x128 := rfl

theorem lay1_apply (x0 : Vec Ideal S1x64x512 .bf16) (x1 : Vec Ideal S1x128x512 .bf16) (x2 : Vec Ideal S512 .f32)
    (p : Fin 64) (q : Fin 128) (k : Fin 8192) (hk : k.val = p.val * 128 + q.val) (h : Fin 512) :
    lay1 x0 x1 x2 (ix2 k h) = max (x0 (ix3 (0 : Fin 1) p h) + x1 (ix3 (0 : Fin 1) q h) + x2 (ix1 h)) 0 := by
  unfold lay1
  refine (shapeCast_abc_nc_apply _ shapeCasts_S64x128x512_S8192x512 p q h k hk).trans ?_
  rw [maximumf_apply, addf_apply, addf_apply, broadcast_apply]
  rw [broadcastTo_a1c_abc_apply _ broadcasts_S64x1x512_S64x128x512 p q h,
    shapeCast_ac_a1c_apply _ shapeCasts_S64x512_S64x1x512 p (0 : Fin 1) h,
    shapeCast_1ab_ab_apply x0 shapeCasts_S1x64x512_S64x512 p h,
    broadcastTo_1bc_abc_apply _ broadcasts_S1x128x512_S64x128x512 p q h,
    shapeCast_ab_1ab_apply _ shapeCasts_S128x512_S1x128x512 (0 : Fin 1) q h,
    shapeCast_1ab_ab_apply x1 shapeCasts_S1x128x512_S128x512 q h,
    broadcastTo_11c_abc_apply _ broadcasts_S1x1x512_S64x128x512 p q h,
    shapeCast_c_11c_apply _ shapeCasts_S512_S1x1x512 (0 : Fin 1) (0 : Fin 1) h,
    truncf_apply]
  show max _ (Ideal.ofBits .bf16 0x0000#16) = _
  rw [Cert.PairScore.ofBits_zero_bf16]

theorem lay2_apply (x0 : Vec Ideal S1x64x512 .bf16) (x1 : Vec Ideal S1x128x512 .bf16) (x2 : Vec Ideal S512 .f32)
    (x3 : Vec Ideal S512x256 .f32) (x4 : Vec Ideal S256 .f32)
    (p : Fin 64) (q : Fin 128) (k : Fin 8192) (hk : k.val = p.val * 128 + q.val) (j : Fin 256) :
    lay2 x0 x1 x2 x3 x4 (ix2 k j)
      = max ((∑ h : Fin 512, max (x0 (ix3 (0 : Fin 1) p h) + x1 (ix3 (0 : Fin 1) q h) + x2 (ix1 h)) 0 * x3 (ix2 h j)) + x4 (ix1 j)) 0 := by
  unfold lay2
  rw [truncf_apply, maximumf_apply, addf_apply, broadcast_apply, Mat.hidden_apply,
    broadcastTo_1b_ab_apply _ broadcasts_S1x256_S8192x256 k j,
    shapeCast_a_1a_apply x4 shapeCasts_S256_S1x256 (0 : Fin 1) j]
  show max _ (Ideal.ofBits .f32 0x00000000#32) = _
  rw [Ideal.ofBits_zero_f32]
  refine congrArg (fun s => max (s + x4 (ix1 j)) 0) (Finset.sum_congr rfl fun h _ => ?_)
  rw [lay1_apply x0 x1 x2 p q k hk h, truncf_apply]

theorem lay3_apply (x0 : Vec Ideal S1x64x512 .bf16) (x1 : Vec Ideal S1x128x512 .bf16) (x2 : Vec Ideal S512 .f32)
    (x3 : Vec Ideal S512x256 .f32) (x4 : Vec Ideal S256 .f32) (x5 : Vec Ideal S256x1 .f32) (x6 : Vec Ideal S1 .f32)
    (p : Fin 64) (q : Fin 128) (k : Fin 8192) (hk : k.val = p.val * 128 + q.val) :
    lay3 x0 x1 x2 x3 x4 x5 x6 (ix2 k (0 : Fin 1))
      = (∑ j : Fin 256, max ((∑ h : Fin 512, max (x0 (ix3 (0 : Fin 1) p h) + x1 (ix3 (0 : Fin 1) q h) + x2 (ix1 h)) 0 * x3 (ix2 h j)) + x4 (ix1 j)) 0
            * x5 (ix2 j (0 : Fin 1))) + x6 (ix1 (0 : Fin 1)) := by
  unfold lay3
  rw [addf_apply, Mat.logit_apply,
    broadcastTo_11_n1_apply _ broadcasts_S1x1_S8192x1 k (0 : Fin 1),
    shapeCast_a_1a_apply x6 shapeCasts_S1_S1x1 (0 : Fin 1) (0 : Fin 1)]
  refine congrArg (fun s => s + x6 (ix1 (0 : Fin 1))) (Finset.sum_congr rfl fun j _ => ?_)
  rw [lay2_apply x0 x1 x2 x3 x4 p q k hk j, truncf_apply]

/-- THE STORED ENTRY at `(z, p, q)`: the score of row `p` of the first block against row `q` of the second. -/
theorem pay_apply (x0 : Vec Ideal S1x64x512 .bf16) (x1 : Vec Ideal S1x128x512 .bf16) (x2 : Vec Ideal S512 .f32)
    (x3 : Vec Ideal S512x256 .f32) (x4 : Vec Ideal S256 .f32) (x5 : Vec Ideal S256x1 .f32) (x6 : Vec Ideal S1 .f32)
    (z : Fin 1) (p : Fin 64) (q : Fin 128) :
    k1_pay1 (k1_pay2 x0 x1 x2 x3 x4 x5 x6) (ix3 z p q)
      = Ideal.logistic ((∑ j : Fin 256, max ((∑ h : Fin 512, max (x0 (ix3 (0 : Fin 1) p h) + x1 (ix3 (0 : Fin 1) q h) + x2 (ix1 h)) 0 * x3 (ix2 h j)) + x4 (ix1 j)) 0
            * x5 (ix2 j (0 : Fin 1))) + x6 (ix1 (0 : Fin 1))) := by
  rw [pay_eq]
  refine (shapeCast_ab_1ab_apply _ shapeCasts_S64x128_S1x64x128 z p q).trans ?_
  show Ideal.logistic (shapeCast S64x128 (lay3 x0 x1 x2 x3 x4 x5 x6) shapeCasts_S8192x1_S64x128 (ix2 p q)) = _
  have hlt : p.val * 128 + q.val < 8192 := by omega
  rw [shapeCast_n1_ab_apply _ shapeCasts_S8192x1_S64x128 p q ⟨p.val * 128 + q.val, hlt⟩ rfl,
    lay3_apply x0 x1 x2 x3 x4 x5 x6 p q ⟨p.val * 128 + q.val, hlt⟩ rfl]

end Cert.KernelIdeal.Pay

end
-- ==== Proof.Region1.lean ====
/-
  Region 1's output array after its last write-back, as a function of the arrays the region finds.

  The grid is batch × 8 row tiles × 4 column tiles. At point `(b, ti, tj)` the body sees rows `64·ti …` of batch `b` of
  the first projection, rows `128·tj …` of batch `b` of the second, and the whole of b1, W2, b2, W3, b3, and stores the
  64 × 128 tile of scores at block `(b, ti, tj)` of the output. The tiles cover the output, one per point, so after the
  run the output at `(b, i, j)` is the score of row `i` of the first projection against row `j` of the second.
-/
import proofs.«158015_j68564857913750_2_alg».proof.Proof.Gen.KernelIdeal.Frame
import proofs.«158015_j68564857913750_2_alg».proof.Proof.PayS
import proofs.«158015_j68564857913750_2_alg».proof.Proof.Spec
import Idealize.ShloMosaic.Lib.Pipeline.Value

noncomputable section

namespace Cert.KernelIdeal.Reg1

open Cert.KernelIdeal Cert.KernelIdeal.Gen Idealize.ShloMosaic Idealize.ShloMosaic.TcCoe Idealize.ShloMosaic.ValueIdx
open Idealize.SL.Sem Cert.PairScore
open Idealize.ShloMosaic.Pipeline (Dat Cfg Window)

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The store's entry at an index of the tile, by its coordinates. -/
theorem entry7 (x0 : Vec Ideal S1x64x512 .bf16) (x1 : Vec Ideal S1x128x512 .bf16) (x2 : Vec Ideal S512 .f32)
    (x3 : Vec Ideal S512x256 .f32) (x4 : Vec Ideal S256 .f32) (x5 : Vec Ideal S256x1 .f32) (x6 : Vec Ideal S1 .f32) (j : S1x64x128.Idx) :
    k1_pay1 (k1_pay2 x0 x1 x2 x3 x4 x5 x6) j
      = Ideal.logistic ((∑ k : Fin 256, max ((∑ h : Fin 512, max (x0 (ix3 (0 : Fin 1) (j 1) h) + x1 (ix3 (0 : Fin 1) (j 2) h) + x2 (ix1 h)) 0 * x3 (ix2 h k)) + x4 (ix1 k)) 0
            * x5 (ix2 k (0 : Fin 1))) + x6 (ix1 (0 : Fin 1))) :=
  (congrArg (k1_pay1 (k1_pay2 x0 x1 x2 x3 x4 x5 x6)) (eq_ix3 j)).trans (Pay.pay_apply x0 x1 x2 x3 x4 x5 x6 (j 0) (j 1) (j 2))

/-- The printed index maps over the 64 points: the first input moves with the output's batch and row tile, the second
    with its batch and column tile, both at 0 on the last axis; the five whole-array windows stay at 0. -/
theorem idx_facts : ∀ t : Fin cfg1.N,
    win1_0.index t (0 : Fin 3) = win1_7.index t (0 : Fin 3) ∧ win1_0.index t (1 : Fin 3) = win1_7.index t (1 : Fin 3) ∧ win1_0.index t (2 : Fin 3) = 0
    ∧ win1_1.index t (0 : Fin 3) = win1_7.index t (0 : Fin 3) ∧ win1_1.index t (1 : Fin 3) = win1_7.index t (2 : Fin 3) ∧ win1_1.index t (2 : Fin 3) = 0
    ∧ win1_2.index t (0 : Fin 1) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 3) ≤ 1 ∧ win1_7.index t (1 : Fin 3) ≤ 7 ∧ win1_7.index t (2 : Fin 3) ≤ 3 :=
  (by decide +kernel : ∀ t : Fin grid1.N, _)

/-- Every tile is some point's. -/
theorem idx_onto : ∀ (q0 : Fin 2) (q1 : Fin 8) (q2 : Fin 4), ∃ t : Fin cfg1.N,
    win1_7.index t (0 : Fin 3) = q0.val ∧ win1_7.index t (1 : Fin 3) = q1.val ∧ win1_7.index t (2 : Fin 3) = q2.val :=
  (by decide +kernel : ∀ (q0 : Fin 2) (q1 : Fin 8) (q2 : Fin 4), ∃ t : Fin grid1.N,
    win1_7.index t (0 : Fin 3) = q0.val ∧ win1_7.index t (1 : Fin 3) = q1.val ∧ win1_7.index t (2 : Fin 3) = q2.val)

/-- WHAT POINT `t` WRITES BACK is tile `t` of the scores over the arrays the region finds. -/
theorem flushed7 (c : Dev nD) (t : Fin cfg1.N) :
    (dat1 V c).flushed 7 t = ((cfg1.win 7).blk t).view.read (Elt Ideal) (scoreArr (V c main_v2_0) (V c main_v2_1) (V c main_arg2) (V c main_arg3) (V c main_arg4) (V c main_arg5) (V c main_arg6)) := by
  show (cfg1.win 7).cut (grid1.coords t) ((dat1 V c).after 7 t) = _
  rw [after1_7]
  unfold out1_7
  rw [View.canon_unit_zero hz3]
  simp only [View.ld_unit_zero (S := S1x64x512) hz3, View.ld_unit_zero (S := S1x128x512) hz3, View.ld_unit_zero (S := S512) hz1,
    View.ld_unit_zero (S := S512x256) hz2, View.ld_unit_zero (S := S256) hz1, View.ld_unit_zero (S := S256x1) hz2, View.ld_unit_zero (S := S1) hz1]
  obtain ⟨a00, a01, a02, b00, b01, b02, c0, d0, d1, f0, g0, g1, k0, o0, o1, o2⟩ := idx_facts t
  funext j
  show k1_pay1 (k1_pay2 (iblk1 V c 0 t) (iblk1 V c 1 t) (iblk1 V c 2 t) (iblk1 V c 3 t) (iblk1 V c 4 t) (iblk1 V c 5 t) (iblk1 V c 6 t)) j = scoreArr (V c main_v2_0) (V c main_v2_1) (V c main_arg2) (V c main_arg3) (V c main_arg4) (V c main_arg5) (V c main_arg6) (((cfg1.win 7).blk t).view.emb j)
  rw [entry7 (iblk1 V c 0 t) (iblk1 V c 1 t) (iblk1 V c 2 t) (iblk1 V c 3 t) (iblk1 V c 4 t) (iblk1 V c 5 t) (iblk1 V c 6 t) j]
  unfold scoreArr score
  have hj0 : (j 0).val < 1 := (j 0).isLt
  have r0 : ∀ h : Fin 512, iblk1 V c 0 t (ix3 (0 : Fin 1) (j 1) h) = (V c main_v2_0 : S2x512x512.Idx → EReal) (ix3 ((((cfg1.win 7).blk t).view.emb j) 0) ((((cfg1.win 7).blk t).view.emb j) 1) h) := fun h => by
    show (V c main_v2_0 : S2x512x512.Idx → EReal) (((cfg1.win 0).blk t).view.emb (ix3 (0 : Fin 1) (j 1) h)) = _
    refine congrArg (V c main_v2_0 : S2x512x512.Idx → EReal) (funext fun a => Fin.ext ?_)
    match a with
    | ⟨0, _⟩ => show win1_0.index t (0 : Fin 3) * 1 + 1 * 0 = win1_7.index t (0 : Fin 3) * 1 + 1 * (j 0).val; omega
    | ⟨1, _⟩ => show win1_0.index t (1 : Fin 3) * 64 + 1 * (j 1).val = win1_7.index t (1 : Fin 3) * 64 + 1 * (j 1).val; omega
    | ⟨2, _⟩ => show win1_0.index t (2 : Fin 3) * 512 + 1 * h.val = h.val; omega
  have r1 : ∀ h : Fin 512, iblk1 V c 1 t (ix3 (0 : Fin 1) (j 2) h) = (V c main_v2_1 : S2x512x512.Idx → EReal) (ix3 ((((cfg1.win 7).blk t).view.emb j) 0) ((((cfg1.win 7).blk t).view.emb j) 2) h) := fun h => by
    show (V c main_v2_1 : S2x512x512.Idx → EReal) (((cfg1.win 1).blk t).view.emb (ix3 (0 : Fin 1) (j 2) h)) = _
    refine congrArg (V c main_v2_1 : S2x512x512.Idx → EReal) (funext fun a => Fin.ext ?_)
    match a with
    | ⟨0, _⟩ => show win1_1.index t (0 : Fin 3) * 1 + 1 * 0 = win1_7.index t (0 : Fin 3) * 1 + 1 * (j 0).val; omega
    | ⟨1, _⟩ => show win1_1.index t (1 : Fin 3) * 128 + 1 * (j 2).val = win1_7.index t (2 : Fin 3) * 128 + 1 * (j 2).val; omega
    | ⟨2, _⟩ => show win1_1.index t (2 : Fin 3) * 512 + 1 * h.val = h.val; omega
  have r2 : ∀ h : Fin 512, iblk1 V c 2 t (ix1 h) = (V c main_arg2 : S512.Idx → EReal) (ix1 h) := fun h => by
    show (V c main_arg2 : S512.Idx → EReal) (((cfg1.win 2).blk t).view.emb (ix1 h)) = _
    refine congrArg (V c main_arg2 : S512.Idx → EReal) (funext fun a => Fin.ext ?_)
    match a with
    | ⟨0, _⟩ => show win1_2.index t (0 : Fin 1) * 512 + 1 * h.val = h.val; omega
  have r3 : ∀ (h : Fin 512) (k : Fin 256), iblk1 V c 3 t (ix2 h k) = (V c main_arg3 : S512x256.Idx → EReal) (ix2 h k) := fun h k => by
    show (V c main_arg3 : S512x256.Idx → EReal) (((cfg1.win 3).blk t).view.emb (ix2 h k)) = _
    refine congrArg (V c main_arg3 : S512x256.Idx → EReal) (funext fun a => Fin.ext ?_)
    match a with
    | ⟨0, _⟩ => show win1_3.index t (0 : Fin 2) * 512 + 1 * h.val = h.val; omega
    | ⟨1, _⟩ => show win1_3.index t (1 : Fin 2) * 256 + 1 * k.val = k.val; omega
  have r4 : ∀ k : Fin 256, iblk1 V c 4 t (ix1 k) = (V c main_arg4 : S256.Idx → EReal) (ix1 k) := fun k => by
    show (V c main_arg4 : S256.Idx → EReal) (((cfg1.win 4).blk t).view.emb (ix1 k)) = _
    refine congrArg (V c main_arg4 : S256.Idx → EReal) (funext fun a => Fin.ext ?_)
    match a with
    | ⟨0, _⟩ => show win1_4.index t (0 : Fin 1) * 256 + 1 * k.val = k.val; omega
  have r5 : ∀ k : Fin 256, iblk1 V c 5 t (ix2 k (0 : Fin 1)) = (V c main_arg5 : S256x1.Idx → EReal) (ix2 k (0 : Fin 1)) := fun k => by
    show (V c main_arg5 : S256x1.Idx → EReal) (((cfg1.win 5).blk t).view.emb (ix2 k (0 : Fin 1))) = _
    refine congrArg (V c main_arg5 : S256x1.Idx → EReal) (funext fun a => Fin.ext ?_)
    match a with
    | ⟨0, _⟩ => show win1_5.index t (0 : Fin 2) * 256 + 1 * k.val = k.val; omega
    | ⟨1, _⟩ => show win1_5.index t (1 : Fin 2) * 1 + 1 * 0 = 0; omega
  have r6 : iblk1 V c 6 t (ix1 (0 : Fin 1)) = (V c main_arg6 : S1.Idx → EReal) (ix1 (0 : Fin 1)) := by
    show (V c main_arg6 : S1.Idx → EReal) (((cfg1.win 6).blk t).view.emb (ix1 (0 : Fin 1))) = _
    refine congrArg (V c main_arg6 : S1.Idx → EReal) (funext fun a => Fin.ext ?_)
    match a with
    | ⟨0, _⟩ => show win1_6.index t (0 : Fin 1) * 1 + 1 * 0 = 0; omega
  refine congrArg Ideal.logistic ?_
  refine congrArg₂ (fun a b : EReal => a + b) (Finset.sum_congr rfl fun k _ => ?_) r6
  refine congrArg₂ (fun a b : EReal => a * b) ?_ (r5 k)
  refine congrArg (fun s : EReal => max s 0) ?_
  refine congrArg₂ (fun a b : EReal => a + b) (Finset.sum_congr rfl fun h _ => ?_) (r4 k)
  refine congrArg₂ (fun a b : EReal => a * b) ?_ (r3 h k)
  refine congrArg (fun s : EReal => max s 0) ?_
  exact congrArg₂ (fun a b : EReal => a + b) (congrArg₂ (fun a b : EReal => a + b) (r0 h) (r1 h)) (r2 h)

/-- An index of the output is in point `t`'s tile iff each coordinate is in the tile's range on its axis. -/
theorem mem_blk7 (t : Fin cfg1.N) (i : S2x512x512.Idx) :
    i ∈ ((cfg1.win 7).blk t).view.set ↔ ∀ a : Fin 3, win1_7.index t a * S1x64x128.size a ≤ (i a).val ∧ (i a).val < win1_7.index t a * S1x64x128.size a + S1x64x128.size a := by
  show i ∈ ((View.whole main_v3).slice (win1_7.rect t)).set ↔ _
  rw [View.set_slice_whole, Rect.mem_set_unit]
  exact Iff.rfl

/-- Every index of the output is in the tile of the point of its batch, row tile and column tile. -/
theorem cover7 (i : S2x512x512.Idx) : ∃ t : Fin cfg1.N, (cfg1.win 7).flush t = true ∧ i ∈ ((cfg1.win 7).blk t).view.set := by
  have hi0 : (i 0).val < 2 := (i 0).isLt
  have hi1 : (i 1).val < 512 := (i 1).isLt
  have hi2 : (i 2).val < 512 := (i 2).isLt
  obtain ⟨t, q0, q1, q2⟩ := idx_onto ⟨(i 0).val, hi0⟩ ⟨(i 1).val / 64, by omega⟩ ⟨(i 2).val / 128, by omega⟩
  have p0 : win1_7.index t (0 : Fin 3) = (i 0).val := q0
  have p1 : win1_7.index t (1 : Fin 3) = (i 1).val / 64 := q1
  have p2 : win1_7.index t (2 : Fin 3) = (i 2).val / 128 := q2
  refine ⟨t, flush1_7 t, ?_⟩
  rw [mem_blk7]
  intro a
  match a with
  | ⟨0, _⟩ => show win1_7.index t (0 : Fin 3) * 1 ≤ (i 0).val ∧ (i 0).val < win1_7.index t (0 : Fin 3) * 1 + 1; omega
  | ⟨1, _⟩ => show win1_7.index t (1 : Fin 3) * 64 ≤ (i 1).val ∧ (i 1).val < win1_7.index t (1 : Fin 3) * 64 + 64; omega
  | ⟨2, _⟩ => show win1_7.index t (2 : Fin 3) * 128 ≤ (i 2).val ∧ (i 2).val < win1_7.index t (2 : Fin 3) * 128 + 128; omega

/-- THE OUTPUT ARRAY after the run: the scores over the arrays the region finds. -/
theorem final7 (c : Dev nD) : (dat1 V c).arrAt 7 cfg1.N = scoreArr (V c main_v2_0) (V c main_v2_1) (V c main_arg2) (V c main_arg3) (V c main_arg4) (V c main_arg5) (V c main_arg6) :=
  (dat1 V c).arrAt_eq_of_cover 7 (scoreArr (V c main_v2_0) (V c main_v2_1) (V c main_arg2) (V c main_arg3) (V c main_arg4) (V c main_arg5) (V c main_arg6)) (fun t _ => flushed7 V c t) cover7

end Cert.KernelIdeal.Reg1

end
-- ==== Proof.KernelValue.lean ====
/-
  The kernel program's result buffer is the specification of the launch arguments.

  Region 1's output array is the scores over the arrays region 1 finds: its two projection inputs are region 0's two
  output arrays, and its five other inputs are arguments nothing has written. Region 0's outputs are the projections of
  the features against the two arrays the host stretch wrote, the upper and the lower half of W1. Read back through the
  three segments, the result buffer holds the scores over the two projections of the launch arguments.
-/
import proofs.«158015_j68564857913750_2_alg».proof.Proof.Gen.KernelIdeal.Frame
import proofs.«158015_j68564857913750_2_alg».proof.Proof.KernelRun
import proofs.«158015_j68564857913750_2_alg».proof.Proof.Region0
import proofs.«158015_j68564857913750_2_alg».proof.Proof.Region1
import proofs.«158015_j68564857913750_2_alg».proof.Proof.Spec
import Idealize.ShloMosaic.Lib.StableHlo.Run
import Idealize.ShloMosaic.Lib.Pipeline.Value

noncomputable section

namespace Cert.KernelIdeal.Whole

open Cert.KernelIdeal Cert.KernelIdeal.Gen Idealize.ShloMosaic Idealize.ShloMosaic.TcCoe Idealize.ShloMosaic.ValueIdx
open Idealize.SL.Sem Cert.PairScore
open Idealize.ShloMosaic.Pipeline (Dat Cfg Window)

variable (m : (ℓ : Loc nD τ sig) → Buf (Elt Ideal) ℓ) (ρ : Dev nD → PrngReg)

/-! ## What region 0 finds -/

theorem V1_arg0 (c : Dev nD) : (V1 m ρ c main_arg0 : S2x512x512.Idx → EReal) = (m ((c.tc : Thread nD τ).loc main_arg0)) := by
  dsimp only [V1, W1, hostOps0]; after_results
theorem V1_v0 (c : Dev nD) : (V1 m ρ c main_v0 : S512x512.Idx → EReal)
    = extractStridedSlice S512x512 ![0, 0] (m ((c.tc : Thread nD τ).loc main_arg1)) slices_S1024x512_S512x512_0_0 := by
  dsimp only [V1, W1, hostOps0]; after_results
theorem V1_v1 (c : Dev nD) : (V1 m ρ c main_v1 : S512x512.Idx → EReal)
    = extractStridedSlice S512x512 ![512, 0] (m ((c.tc : Thread nD τ).loc main_arg1)) slices_S1024x512_S512x512_512_0 := by
  dsimp only [V1, W1, hostOps0]; after_results

/-- The upper half of W1 at `(g, h)`. -/
theorem upper_apply (w1 : S1024x512.Idx → EReal) (g h : Fin 512) :
    extractStridedSlice S512x512 ![0, 0] w1 slices_S1024x512_S512x512_0_0 (ix2 g h) = w1 (ix2 (⟨g.val, by omega⟩ : Fin 1024) h) :=
  extractStridedSlice_apply ![0, 0] w1 slices_S1024x512_S512x512_0_0 (ix2 g h) (ix2 (⟨g.val, by omega⟩ : Fin 1024) h) (fun a => match a with
    | ⟨0, _⟩ => by show g.val = 0 + g.val; omega
    | ⟨1, _⟩ => by show h.val = 0 + h.val; omega)
/-- The lower half of W1 at `(g, h)`. -/
theorem lower_apply (w1 : S1024x512.Idx → EReal) (g h : Fin 512) :
    extractStridedSlice S512x512 ![512, 0] w1 slices_S1024x512_S512x512_512_0 (ix2 g h) = w1 (ix2 (⟨512 + g.val, by omega⟩ : Fin 1024) h) :=
  extractStridedSlice_apply ![512, 0] w1 slices_S1024x512_S512x512_512_0 (ix2 g h) (ix2 (⟨512 + g.val, by omega⟩ : Fin 1024) h) (fun a => match a with
    | ⟨0, _⟩ => by show 512 + g.val = 512 + g.val; rfl
    | ⟨1, _⟩ => by show h.val = 0 + h.val; omega)

/-! ## What region 1 finds -/

/-- Its first input is region 0's first output: the projection against the upper half. -/
theorem V2_lo (c : Dev nD) : (V2 m ρ c main_v2_0 : S2x512x512.Idx → EReal) = arrLo (m ((c.tc : Thread nD τ).loc main_arg0)) (m ((c.tc : Thread nD τ).loc main_arg1)) := by
  refine (W2_arr m ρ c 3).trans ((Reg0.final3 (V1 m ρ) c).trans ?_)
  funext i
  unfold Reg0.proj arrLo projLo
  refine Finset.sum_congr rfl fun g _ => ?_
  rw [V1_arg0, V1_v0]
  exact congrArg₂ (fun a b : EReal => a * b) rfl (upper_apply _ g (i 2))
/-- Its second input is region 0's second output: the projection against the lower half. -/
theorem V2_hi (c : Dev nD) : (V2 m ρ c main_v2_1 : S2x512x512.Idx → EReal) = arrHi (m ((c.tc : Thread nD τ).loc main_arg0)) (m ((c.tc : Thread nD τ).loc main_arg1)) := by
  refine (W2_arr m ρ c 4).trans ((Reg0.final4 (V1 m ρ) c).trans ?_)
  funext i
  unfold Reg0.proj arrHi projHi
  refine Finset.sum_congr rfl fun g _ => ?_
  rw [V1_arg0, V1_v1]
  exact congrArg₂ (fun a b : EReal => a * b) rfl (lower_apply _ g (i 2))

/-- Its other inputs are arguments as launched: an input window's array ends as the region found it, and the last
    boundary's contents at an argument are the launch memory's. -/
theorem V2_arg2 (c : Dev nD) : (V2 m ρ c main_arg2 : S512.Idx → EReal) = (m ((c.tc : Thread nD τ).loc main_arg2)) :=
  ((W3_arr m ρ c 2).trans (((dat1 (V2 m ρ) c).arrAt_in 2 rfl _).trans (A_eq1 (V2 m ρ) c 2))).symm.trans (W3_main_arg2 m ρ c)
theorem V2_arg3 (c : Dev nD) : (V2 m ρ c main_arg3 : S512x256.Idx → EReal) = (m ((c.tc : Thread nD τ).loc main_arg3)) :=
  ((W3_arr m ρ c 3).trans (((dat1 (V2 m ρ) c).arrAt_in 3 rfl _).trans (A_eq1 (V2 m ρ) c 3))).symm.trans (W3_main_arg3 m ρ c)
theorem V2_arg4 (c : Dev nD) : (V2 m ρ c main_arg4 : S256.Idx → EReal) = (m ((c.tc : Thread nD τ).loc main_arg4)) :=
  ((W3_arr m ρ c 4).trans (((dat1 (V2 m ρ) c).arrAt_in 4 rfl _).trans (A_eq1 (V2 m ρ) c 4))).symm.trans (W3_main_arg4 m ρ c)
theorem V2_arg5 (c : Dev nD) : (V2 m ρ c main_arg5 : S256x1.Idx → EReal) = (m ((c.tc : Thread nD τ).loc main_arg5)) :=
  ((W3_arr m ρ c 5).trans (((dat1 (V2 m ρ) c).arrAt_in 5 rfl _).trans (A_eq1 (V2 m ρ) c 5))).symm.trans (W3_main_arg5 m ρ c)
theorem V2_arg6 (c : Dev nD) : (V2 m ρ c main_arg6 : S1.Idx → EReal) = (m ((c.tc : Thread nD τ).loc main_arg6)) :=
  ((W3_arr m ρ c 6).trans (((dat1 (V2 m ρ) c).arrAt_in 6 rfl _).trans (A_eq1 (V2 m ρ) c 6))).symm.trans (W3_main_arg6 m ρ c)

/-- The scores depend on their seven arrays only. -/
theorem scoreArr_congr {A A' C C' : S2x512x512.Idx → EReal} {b1 b1' : S512.Idx → EReal} {w2 w2' : S512x256.Idx → EReal}
    {b2 b2' : S256.Idx → EReal} {w3 w3' : S256x1.Idx → EReal} {b3 b3' : S1.Idx → EReal}
    (hA : A = A') (hC : C = C') (h1 : b1 = b1') (h2 : w2 = w2') (h3 : b2 = b2') (h4 : w3 = w3') (h5 : b3 = b3') :
    scoreArr A C b1 w2 b2 w3 b3 = scoreArr A' C' b1' w2' b2' w3' b3' := by
  rw [hA, hC, h1, h2, h3, h4, h5]

/-- THE RESULT BUFFER at the last boundary is the specification of the launch arguments. -/
theorem W3_result (c : Dev nD) : (W3 m ρ c (Proc.devRef .tc main_v3) : S2x512x512.Idx → EReal)
    = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (W3_arr m ρ c 7).trans ((Reg1.final7 (V2 m ρ) c).trans ?_)
  unfold result
  exact scoreArr_congr (V2_lo m ρ c) (V2_hi m ρ c) (V2_arg2 m ρ c) (V2_arg3 m ρ c) (V2_arg4 m ρ c) (V2_arg5 m ρ c) (V2_arg6 m ρ c)

/-- The kernel program's run with its result at the specification. -/
theorem run_result : θ_run defs (onTc (τ := τ) (main (F := Ideal))) ⟨m, fun _ => 0, ρ⟩ (fun r => ∀ c : Dev nD,
      r.2.mem ((c.tc : Thread nD τ).loc main_v3)
        = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (W3_result m ρ c), (h c).2⟩) (run (F := Ideal) m ρ)

end Cert.KernelIdeal.Whole

end
-- ==== Proof.RefValue.lean ====
/-
  The reference's result is the specification.

  The reference computes the two projections of the features by two whole-array products against the two halves of W1,
  broadcasts one along a new second pair axis and the other along a new first pair axis, adds them and b1, takes the
  maximum with zero, multiplies the [2, 512, 512, 512] array by W2, adds b2, takes the maximum with zero, multiplies by
  W3, adds b3, drops the trailing unit axis, and writes the logistic function as 1 / (1 + exp(−x)). Read one operation
  at a time at an index given by coordinates, each stage is the specification's stage: the products are the plain sums,
  the broadcasts pick the coordinates the specification names, and at the extended reals 1 / (1 + exp(−x)) is the
  logistic function by definition.
-/
import proofs.«158015_j68564857913750_2_alg».proof.Proof.Gen.ReferenceIdeal.Read
import proofs.«158015_j68564857913750_2_alg».proof.Proof.Spec
import Idealize.ShloMosaic.Lib.IdealHost

noncomputable section

namespace Cert.ReferenceIdeal.RefValue

open Cert.ReferenceIdeal Cert.ReferenceIdeal.Gen Cert.ReferenceIdeal.Read Cert.PairScore
open Idealize.ShloMosaic Idealize.ShloMosaic.ValueIdx

/-- The first product: a row of the features against a column of the upper half. -/
theorem lo_apply (x0 : (⟨S2x512x512, .f32⟩ : BufTy).Contents (Elt Ideal)) (x1 : (⟨S1024x512, .f32⟩ : BufTy).Contents (Elt Ideal)) (b : Fin 2) (s h : Fin 512) :
    val_main_v1 (F := Ideal) x0 x1 (ix3 b s h) = projLo x0 x1 b s h := by
  rw [val_main_v1_apply]
  unfold projLo
  refine Finset.sum_congr rfl fun g _ => ?_
  rw [val_main_v0_apply]
  have e1 : lidx_main_v1 (ix3 b s h) g = ix3 b s g :=
    funext fun a => Fin.ext (by match a with | ⟨0, _⟩ => rfl | ⟨1, _⟩ => rfl | ⟨2, _⟩ => rfl)
  have e2 : idx_main_v0 (ridx_main_v1 (ix3 b s h) g) = ix2 (⟨g.val, by omega⟩ : Fin 1024) h :=
    funext fun a => Fin.ext (by match a with | ⟨0, _⟩ => rfl | ⟨1, _⟩ => rfl)
  rw [e1, e2]

/-- The second product: a row of the features against a column of the lower half. -/
theorem hi_apply (x0 : (⟨S2x512x512, .f32⟩ : BufTy).Contents (Elt Ideal)) (x1 : (⟨S1024x512, .f32⟩ : BufTy).Contents (Elt Ideal)) (b : Fin 2) (s h : Fin 512) :
    val_main_v3 (F := Ideal) x0 x1 (ix3 b s h) = projHi x0 x1 b s h := by
  rw [val_main_v3_apply]
  unfold projHi
  refine Finset.sum_congr rfl fun g _ => ?_
  rw [val_main_v2_apply]
  have e1 : lidx_main_v3 (ix3 b s h) g = ix3 b s g :=
    funext fun a => Fin.ext (by match a with | ⟨0, _⟩ => rfl | ⟨1, _⟩ => rfl | ⟨2, _⟩ => rfl)
  have e2 : idx_main_v2 (ridx_main_v3 (ix3 b s h) g) = ix2 (⟨512 + g.val, by omega⟩ : Fin 1024) h :=
    funext fun a => Fin.ext (by match a with | ⟨0, _⟩ => rfl | ⟨1, _⟩ => rfl)
  rw [e1, e2]

/-- The first layer at a pair `(i, j)` of batch `b` and hidden unit `h`. -/
theorem h1_apply (x0 : (⟨S2x512x512, .f32⟩ : BufTy).Contents (Elt Ideal)) (x1 : (⟨S1024x512, .f32⟩ : BufTy).Contents (Elt Ideal)) (x2 : (⟨S512, .f32⟩ : BufTy).Contents (Elt Ideal)) (b : Fin 2) (i j h : Fin 512) :
    val_main_v12 (F := Ideal) x0 x1 x2 (ix4 b i j h) = max (projLo x0 x1 b i h + projHi x0 x1 b j h + x2 (ix1 h)) 0 := by
  rw [val_main_v12_apply, val_main_v11_apply, val_main_v8_apply, val_main_v6_apply, val_main_v4_apply, val_main_v7_apply,
    val_main_v5_apply, val_main_v10_apply, val_main_v9_apply, val_main_call0_v0_apply, val_main_call0_cst_apply]
  have e1 : idx_main_v4 (idx_main_v6 (ix4 b i j h)) = ix3 b i h :=
    funext fun a => Fin.ext (by match a with | ⟨0, _⟩ => rfl | ⟨1, _⟩ => rfl | ⟨2, _⟩ => rfl)
  have e2 : idx_main_v5 (idx_main_v7 (ix4 b i j h)) = ix3 b j h :=
    funext fun a => Fin.ext (by match a with | ⟨0, _⟩ => rfl | ⟨1, _⟩ => rfl | ⟨2, _⟩ => rfl)
  have e3 : idx_main_v9 (idx_main_v10 (ix4 b i j h)) = ix1 h :=
    funext fun a => Fin.ext (by match a with | ⟨0, _⟩ => rfl)
  rw [e1, e2, e3, lo_apply, hi_apply]
  show max _ (Ideal.ofBits .f32 0x00000000#32) = _
  rw [Ideal.ofBits_zero_f32]
  rfl

/-- The second layer at a pair and hidden unit `k`. -/
theorem h2_apply (x0 : (⟨S2x512x512, .f32⟩ : BufTy).Contents (Elt Ideal)) (x1 : (⟨S1024x512, .f32⟩ : BufTy).Contents (Elt Ideal)) (x2 : (⟨S512, .f32⟩ : BufTy).Contents (Elt Ideal)) (x3 : (⟨S512x256, .f32⟩ : BufTy).Contents (Elt Ideal)) (x4 : (⟨S256, .f32⟩ : BufTy).Contents (Elt Ideal)) (b : Fin 2) (i j : Fin 512) (k : Fin 256) :
    val_main_v17 (F := Ideal) x0 x1 x2 x3 x4 (ix4 b i j k) = max ((∑ h : Fin 512, max (projLo x0 x1 b i h + projHi x0 x1 b j h + x2 (ix1 h)) 0 * x3 (ix2 h k)) + x4 (ix1 k)) 0 := by
  rw [val_main_v17_apply, val_main_v16_apply, val_main_v13_apply, val_main_v15_apply, val_main_v14_apply,
    val_main_call1_v0_apply, val_main_call1_cst_apply]
  have e3 : idx_main_v14 (idx_main_v15 (ix4 b i j k)) = ix1 k :=
    funext fun a => Fin.ext (by match a with | ⟨0, _⟩ => rfl)
  rw [e3]
  show max (_ + x4 (ix1 k)) (Ideal.ofBits .f32 0x00000000#32) = _
  rw [Ideal.ofBits_zero_f32]
  refine congrArg (fun s => max (s + x4 (ix1 k)) 0) (Finset.sum_congr rfl fun h _ => ?_)
  have e1 : lidx_main_v13 (ix4 b i j k) h = ix4 b i j h :=
    funext fun a => Fin.ext (by match a with | ⟨0, _⟩ => rfl | ⟨1, _⟩ => rfl | ⟨2, _⟩ => rfl | ⟨3, _⟩ => rfl)
  have e2 : ridx_main_v13 (ix4 b i j k) h = ix2 h k :=
    funext fun a => Fin.ext (by match a with | ⟨0, _⟩ => rfl | ⟨1, _⟩ => rfl)
  rw [e1, e2, h1_apply]

/-- The logit of a pair. -/
theorem logit_apply (x0 : (⟨S2x512x512, .f32⟩ : BufTy).Contents (Elt Ideal)) (x1 : (⟨S1024x512, .f32⟩ : BufTy).Contents (Elt Ideal)) (x2 : (⟨S512, .f32⟩ : BufTy).Contents (Elt Ideal)) (x3 : (⟨S512x256, .f32⟩ : BufTy).Contents (Elt Ideal)) (x4 : (⟨S256, .f32⟩ : BufTy).Contents (Elt Ideal)) (x5 : (⟨S256x1, .f32⟩ : BufTy).Contents (Elt Ideal)) (x6 : (⟨S1, .f32⟩ : BufTy).Contents (Elt Ideal)) (b : Fin 2) (i j : Fin 512) :
    val_main_v21 (F := Ideal) x0 x1 x2 x3 x4 x5 x6 (ix4 b i j (0 : Fin 1)) = (∑ k : Fin 256, max ((∑ h : Fin 512, max (projLo x0 x1 b i h + projHi x0 x1 b j h + x2 (ix1 h)) 0 * x3 (ix2 h k)) + x4 (ix1 k)) 0 * x5 (ix2 k (0 : Fin 1))) + x6 (ix1 (0 : Fin 1)) := by
  rw [val_main_v21_apply, val_main_v18_apply, val_main_v20_apply, val_main_v19_apply]
  have e3 : idx_main_v19 (idx_main_v20 (ix4 b i j (0 : Fin 1))) = ix1 (0 : Fin 1) :=
    funext fun a => Fin.ext (by match a with | ⟨0, _⟩ => rfl)
  rw [e3]
  refine congrArg (fun s => s + x6 (ix1 (0 : Fin 1))) (Finset.sum_congr rfl fun k _ => ?_)
  have e1 : lidx_main_v18 (ix4 b i j (0 : Fin 1)) k = ix4 b i j k :=
    funext fun a => Fin.ext (by match a with | ⟨0, _⟩ => rfl | ⟨1, _⟩ => rfl | ⟨2, _⟩ => rfl | ⟨3, _⟩ => rfl)
  have e2 : ridx_main_v18 (ix4 b i j (0 : Fin 1)) k = ix2 k (0 : Fin 1) :=
    funext fun a => Fin.ext (by match a with | ⟨0, _⟩ => rfl | ⟨1, _⟩ => rfl)
  rw [e1, e2, h2_apply]

/-- The reshape that drops the trailing unit axis reads the pair's logit. -/
theorem idx22 (b : Fin 2) (i j : Fin 512) : idx_main_v22 (ix3 b i j) = ix4 b i j (0 : Fin 1) :=
  funext fun a => Fin.ext (by
    match a with
    | ⟨0, _⟩ => show ((b.val * 512 + i.val) * 512 + j.val) / 262144 = b.val; omega
    | ⟨1, _⟩ => show ((b.val * 512 + i.val) * 512 + j.val) / 512 % 512 = i.val; omega
    | ⟨2, _⟩ => show ((b.val * 512 + i.val) * 512 + j.val) / 1 % 512 = j.val; omega
    | ⟨3, _⟩ => rfl)

/-- THE REFERENCE'S RESULT, index by index, is the specification. -/
theorem result_eq (x0 : (⟨S2x512x512, .f32⟩ : BufTy).Contents (Elt Ideal)) (x1 : (⟨S1024x512, .f32⟩ : BufTy).Contents (Elt Ideal)) (x2 : (⟨S512, .f32⟩ : BufTy).Contents (Elt Ideal)) (x3 : (⟨S512x256, .f32⟩ : BufTy).Contents (Elt Ideal)) (x4 : (⟨S256, .f32⟩ : BufTy).Contents (Elt Ideal)) (x5 : (⟨S256x1, .f32⟩ : BufTy).Contents (Elt Ideal)) (x6 : (⟨S1, .f32⟩ : BufTy).Contents (Elt Ideal)) :
    val_main_v28 (F := Ideal) x0 x1 x2 x3 x4 x5 x6 = result x0 x1 x2 x3 x4 x5 x6 := by
  funext idx
  obtain ⟨b, i, j, rfl⟩ : ∃ (b : Fin 2) (i j : Fin 512), idx = ix3 b i j := ⟨idx 0, idx 1, idx 2, eq_ix3 idx⟩
  rw [val_main_v28_apply, val_main_v27_apply, val_main_cst_0_apply, val_main_v26_apply, val_main_v25_apply, val_main_cst_apply,
    val_main_v24_apply, val_main_v23_apply, val_main_v22_apply, idx22, logit_apply]
  show Ideal.div (Ideal.ofBits .f32 0x3F800000#32) (Ideal.ofBits .f32 0x3F800000#32 + Ideal.exp (-(_))) = _
  rw [Ideal.ofBits_one_f32]
  rfl

end Cert.ReferenceIdeal.RefValue

end
-- ==== Proof.lean ====
/-
  A pairwise scorer: for every batch `b` and every pair `(i, j)` of its 512 rows, the kernel and the reference compute
      out(b, i, j) = logistic( W3ᵀ · max( W2ᵀ · max( A(b, i, ·) + C(b, j, ·) + b1, 0 ) + b2, 0 ) + b3 ),
  where A and C are the projections of the features against the upper and the lower half of W1.

  The kernel does it in two grids. The first has one point per batch and writes A and C, each block the product of a
  block of features with a half of W1 (the halves are cut out by two host slices before the first grid). The second
  has a point per batch, tile of 64 rows `i` and tile of 128 rows `j`: it adds every row of the A tile to every row of
  the C tile and to b1, flattens the 64 × 128 pairs into 8192 rows for the two matrix products, and folds the logits
  back into a 64 × 128 tile of the output. The reference does the same on whole arrays, with the pair axes made by
  broadcasts and the logistic function spelt 1 / (1 + exp(−x)).

  At the extended reals a change of float format is the identity, a matrix product into a zero accumulator is the plain
  finite sum, and 1 / (1 + exp(−x)) is the logistic function by definition; so both programs evaluate the same
  expression (module Spec) index by index, and no algebraic law and no finiteness of the inputs is used: the two sides
  differ only in how the indices are laid out. The kernel's side: each store read at an index (PayA, PayS over Mat and
  LibPairLayout), each grid's output array as one function of the arrays the grid finds (Region0, Region1), the run
  through the three segments (KernelRun), and the composition (KernelValue). The reference's side: its run read one
  operation at a time (RefValue). No operation of the kernel is replaced when it is read at the extended reals, so the
  kernel read there is the kernel's own text and the fourth claim has nothing to state.
-/
import proofs.«158015_j68564857913750_2_alg».proof.Defs
import proofs.«158015_j68564857913750_2_alg».proof.Proof.Gen.Kernel
import proofs.«158015_j68564857913750_2_alg».proof.Proof.Gen.Kernel.Frame
import proofs.«158015_j68564857913750_2_alg».proof.Proof.Gen.KernelIdeal
import proofs.«158015_j68564857913750_2_alg».proof.Proof.Gen.KernelIdeal.Frame
import proofs.«158015_j68564857913750_2_alg».proof.Proof.Gen.ReferenceIdeal
import proofs.«158015_j68564857913750_2_alg».proof.Proof.Gen.Pre_finite_inputs
import proofs.«158015_j68564857913750_2_alg».proof.Proof.Gen.ReferenceIdeal.Run
import proofs.«158015_j68564857913750_2_alg».proof.Proof.Gen.ReferenceIdeal.Read
import proofs.«158015_j68564857913750_2_alg».proof.Proof.KernelValue
import proofs.«158015_j68564857913750_2_alg».proof.Proof.RefValue

noncomputable section

namespace Cert.Proof

open Idealize.ShloMosaic Idealize.SL.Sem

/-- The kernel program terminates, faults nowhere and leaves its arguments as launched: the two regions' frame. -/
theorem frame_k : Cert.frame_Kernel := fun m ρ _ => Cert.Kernel.Gen.frame m ρ

/-- The same for the kernel read at the extended reals. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation of the kernel was rewritten when it was read at the extended reals. -/
theorem preserves : Cert.preserves_Kernel_KernelIdeal := trivial

/-- From memories that agree on the arguments both programs end with the result buffer at the specification of the
    arguments: the kernel's by its run through the two regions, the reference's by its run read back. -/
theorem algebraic : Cert.algebraic_KernelIdeal_ReferenceIdeal := by
  intro m ρ m' ρ' _ hagree
  refine ⟨_, Cert.KernelIdeal.Whole.run_result m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v28_eq, Cert.ReferenceIdeal.RefValue.result_eq, h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
